-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x30 : Shape := ⟨2, ![100000, 30]⟩
abbrev S30x64 : Shape := ⟨2, ![30, 64]⟩
abbrev S64 : Shape := ⟨1, ![64]⟩
abbrev S64x64 : Shape := ⟨2, ![64, 64]⟩
abbrev S1200000 : Shape := ⟨1, ![1200000]⟩
abbrev S_ : Shape := ⟨0, ![]⟩

class Facts : Prop where
  bcast_S_S100000x30 : S_.BroadcastsInDim S100000x30 (![] : Fin 0 → Fin S100000x30.rank)
  reducesTo_S100000x30_S_d0_1 : S100000x30.ReducesTo [0, 1] S_
  h_S_ : 0 < S_.numel
  bcast_S_S30x64 : S_.BroadcastsInDim S30x64 (![] : Fin 0 → Fin S30x64.rank)
  reducesTo_S30x64_S_d0_1 : S30x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg4 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x30 .f32) (main_arg1 : FVec F S30x64 .f32) (main_arg2 : FVec F S64 .f32) (main_arg3 : FVec F S64x64 .f32) (main_arg4 : FVec F S64 .f32) (main_arg5 : IVec S1200000 32) (main_arg6 : IVec S1200000 32) : IVec S_ 1 :=
  let main_v0 : FVec F S100000x30 .f32 := Host.absf main_arg0
  let main_cst : FVec F S_ .f32 := constant S_ .f32 0x7F800000#32
  let main_v1 : FVec F S100000x30 .f32 := broadcastInDim S100000x30 ![] bcast_S_S100000x30 main_cst
  let main_v2 : IVec S100000x30 1 := cmpf .olt main_v0 main_v1
  let main_c : IVec S_ 1 := constantI S_ 1 1#1
  let main_v3 : IVec S_ 1 := (fun x v => Host.reduce IntOp.andi x v reducesTo_S100000x30_S_d0_1 h_S_) main_v2 main_c
  let main_v4 : FVec F S30x64 .f32 := Host.absf main_arg1
  let main_cst_0 : FVec F S_ .f32 := constant S_ .f32 0x7F800000#32
  let main_v5 : FVec F S30x64 .f32 := broadcastInDim S30x64 ![] bcast_S_S30x64 main_cst_0
  let main_v6 : IVec S30x64 1 := cmpf .olt main_v4 main_v5
  let main_c_1 : IVec S_ 1 := constantI S_ 1 1#1
  let main_v7 : IVec S_ 1 := (fun x v => Host.reduce IntOp.andi x v reducesTo_S30x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_v13 main_v16
-- ==== Kernel.lean ====
abbrev S100000x30 : Shape := ⟨2, ![100000, 30]⟩
abbrev S30x64 : Shape := ⟨2, ![30, 64]⟩
abbrev S64 : Shape := ⟨1, ![64]⟩
abbrev S64x64 : Shape := ⟨2, ![64, 64]⟩
abbrev S1200000 : Shape := ⟨1, ![1200000]⟩
abbrev S_ : Shape := ⟨0, ![]⟩
abbrev S100000 : Shape := ⟨1, ![100000]⟩
abbrev S1200000x1 : Shape := ⟨2, ![1200000, 1]⟩
abbrev S100000x1 : Shape := ⟨2, ![100000, 1]⟩
abbrev S100000x64 : Shape := ⟨2, ![100000, 64]⟩
abbrev S5000x30 : Shape := ⟨2, ![5000, 30]⟩
abbrev S5000x1 : Shape := ⟨2, ![5000, 1]⟩
abbrev S5000x64 : Shape := ⟨2, ![5000, 64]⟩
abbrev S1200000x64 : Shape := ⟨2, ![1200000, 64]⟩
abbrev S1x64 : Shape := ⟨2, ![1, 64]⟩

abbrev nBuf : Space → Nat
  | .hbm => 65
  | .vmem => 28
  | .smem => 0
  | _ => 0

abbrev bufTy : (tb : Table) → Fin (tcTables nBuf tb) → BufTy
  | .hbm, ⟨0, _⟩ => ⟨S100000x30, .f32⟩
  | .hbm, ⟨1, _⟩ => ⟨S30x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S1200000, .i32⟩
  | .hbm, ⟨6, _⟩ => ⟨S1200000, .i32⟩
  | .hbm, ⟨7, _⟩ => ⟨S_, .f32⟩
  | .hbm, ⟨8, _⟩ => ⟨S1200000, .f32⟩
  | .hbm, ⟨9, _⟩ => ⟨S_, .f32⟩
  | .hbm, ⟨10, _⟩ => ⟨S100000, .f32⟩
  | .hbm, ⟨11, _⟩ => ⟨S1200000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S1200000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000x64, .f32⟩
  | .hbm, ⟨31, _⟩ => ⟨S_, .i32⟩
  | .hbm, ⟨32, _⟩ => ⟨S1200000, .i32⟩
  | .hbm, ⟨33, _⟩ => ⟨S1200000, .i1⟩
  | .hbm, ⟨34, _⟩ => ⟨S_, .i32⟩
  | .hbm, ⟨35, _⟩ => ⟨S1200000, .i32⟩
  | .hbm, ⟨36, _⟩ => ⟨S1200000, .i32⟩
  | .hbm, ⟨37, _⟩ => ⟨S1200000, .i32⟩
  | .hbm, ⟨38, _⟩ => ⟨S1200000x1, .i32⟩
  | .hbm, ⟨39, _⟩ => ⟨S1200000x64, .f32⟩
  | .hbm, ⟨40, _⟩ => ⟨S_, .f32⟩
  | .hbm, ⟨41, _⟩ => ⟨S100000x64, .f32⟩
  | .hbm, ⟨42, _⟩ => ⟨S1200000x1, .i32⟩
  | .hbm, ⟨43, _⟩ => ⟨S100000x64, .f32⟩
  | .hbm, ⟨44, _⟩ => ⟨S1x64, .f32⟩
  | .hbm, ⟨45, _⟩ => ⟨S100000x1, .f32⟩
  | .hbm, ⟨46, _⟩ => ⟨S100000x64, .f32⟩
  | .hbm, ⟨47, _⟩ => ⟨S100000x1, .f32⟩
  | .hbm, ⟨48, _⟩ => ⟨S100000x64, .f32⟩
  | .hbm, ⟨49, _⟩ => ⟨S_, .i32⟩
  | .hbm, ⟨50, _⟩ => ⟨S1200000, .i32⟩
  | .hbm, ⟨51, _⟩ => ⟨S1200000, .i1⟩
  | .hbm, ⟨52, _⟩ => ⟨S_, .i32⟩
  | .hbm, ⟨53, _⟩ => ⟨S1200000, .i32⟩
  | .hbm, ⟨54, _⟩ => ⟨S1200000, .i32⟩
  | .hbm, ⟨55, _⟩ => ⟨S1200000, .i32⟩
  | .hbm, ⟨56, _⟩ => ⟨S1200000x1, .i32⟩
  | .hbm, ⟨57, _⟩ => ⟨S1200000x64, .f32⟩
  | .hbm, ⟨58, _⟩ => ⟨S_, .f32⟩
  | .hbm, ⟨59, _⟩ => ⟨S100000x64, .f32⟩
  | .hbm, ⟨60, _⟩ => ⟨S1200000x1, .i32⟩
  | .hbm, ⟨61, _⟩ => ⟨S100000x64, .f32⟩
  | .hbm, ⟨62, _⟩ => ⟨S1x64, .f32⟩
  | .hbm, ⟨63, _⟩ => ⟨S100000x1, .f32⟩
  | .hbm, ⟨64, _⟩ => ⟨S100000x64, .f32⟩
  | .local _ .vmem, ⟨0, _⟩ => ⟨S5000x30, .f32⟩
  | .local _ .vmem, ⟨1, _⟩ => ⟨S5000x30, .f32⟩
  | .local _ .vmem, ⟨2, _⟩ => ⟨S5000x1, .f32⟩
  | .local _ .vmem, ⟨3, _⟩ => ⟨S5000x1, .f32⟩
  | .local _ .vmem, ⟨4, _⟩ => ⟨S30x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S1x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x1, .f32⟩
  | .local _ .vmem, ⟨17, _⟩ => ⟨S5000x1, .f32⟩
  | .local _ .vmem, ⟨18, _⟩ => ⟨S64x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x1, .f32⟩
  | .local _ .vmem, ⟨24, _⟩ => ⟨S5000x1, .f32⟩
  | .local _ .vmem, ⟨25, _⟩ => ⟨S1x64, .f32⟩
  | .local _ .vmem, ⟨26, _⟩ => ⟨S5000x64, .f32⟩
  | .local _ .vmem, ⟨27, _⟩ => ⟨S5000x64, .f32⟩
  | _, _ => ⟨S100000x30, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_cst_4 : Ref sig .tc := ⟨.hbm, 23, rfl⟩
abbrev main_v11 : Ref sig .tc := ⟨.hbm, 24, rfl⟩
abbrev main_v12 : Ref sig .tc := ⟨.hbm, 25, rfl⟩
abbrev main_cst_5 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_6 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_7 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_8 : Ref sig .tc := ⟨.hbm, 49, rfl⟩
abbrev main_v32 : Ref sig .tc := ⟨.hbm, 50, rfl⟩
abbrev main_v33 : Ref sig .tc := ⟨.hbm, 51, rfl⟩
abbrev main_c_9 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_10 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x30 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S30x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  bcast_S_S1200000 : S_.BroadcastsInDim S1200000 (![] : Fin 0 → Fin S1200000.rank)
  bcast_S_S100000 : S_.BroadcastsInDim S100000 (![] : Fin 0 → Fin S100000.rank)
  bcast_S1200000_S1200000x1_0 : S1200000.BroadcastsInDim S1200000x1 (![0] : Fin 1 → Fin S1200000x1.rank)
  shapeCasts_S100000_S100000x1 : S100000.ShapeCasts S100000x1
  inb_S5000x30_S5000x30_0_0 : ∀ a, (![0, 0] : Fin 2 → Nat) a + S5000x30.size a ≤ S5000x30.size a
  h_S5000x30 : 0 < S5000x30.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x30 : S5000x1.Broadcasts S5000x30
  bitsLt_bf16_f32 : FTy.bits .bf16 < FTy.bits .f32
  inb_S30x64_S30x64_0_0 : ∀ a, (![0, 0] : Fin 2 → Nat) a + S30x64.size a ≤ S30x64.size a
  h_S30x64 : 0 < S30x64.numel
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  scatter_S100000_S1200000x1_S1200000_n_0_0_1_wf : ScatterDims.WF S100000 S1200000x1 S1200000 [] [0] [0] 1
  dot_S5000x30_S30x64_S5000x64_1_0_0_1_n_n_wf : DotDims.WF S5000x30 S30x64 S5000x64 [1] [0] [0] [1] [] []
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x30.size a ≤ S100000x30.size a
  hwx0_0 : ∀ i : grid0.Coords, EltTy.bits .f32 = 32 ∨ (Rect.block (s := S100000x30) S5000x30.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S30x64.size a ≤ S30x64.size a
  hwx0_2 : ∀ i : grid0.Coords, EltTy.bits .f32 = 32 ∨ (Rect.block (s := S30x64) S30x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .f32 = 32 ∨ (Rect.block (s := S100000x64) S5000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S100000x64.size a
  hwx3_3 : ∀ i : grid3.Coords, EltTy.bits .f32 = 32 ∨ (Rect.block (s := S100000x64) S5000x64.size (cc3_transform_3 i) (hinb3_3 i)).WholeWords (EltTy.packing .f32)

variable [Facts₀]

def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def dot_S5000x30_S30x64_S5000x64_1_0_0_1_n_n : DotDims S5000x30 S30x64 S5000x64 where
  lhsContracting := [1]
  rhsContracting := [0]
  lhsNonContracting := [0]
  rhsNonContracting := [1]
  lhsBatch := []
  rhsBatch := []
  wf := dot_S5000x30_S30x64_S5000x64_1_0_0_1_n_n_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x30.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S30x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v29) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v30) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg3) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v31) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v41) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v43) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v42) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v44) S5000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x30 : Shape := ⟨2, ![100000, 30]⟩
abbrev S30x64 : Shape := ⟨2, ![30, 64]⟩
abbrev S64 : Shape := ⟨1, ![64]⟩
abbrev S64x64 : Shape := ⟨2, ![64, 64]⟩
abbrev S1200000 : Shape := ⟨1, ![1200000]⟩
abbrev S_ : Shape := ⟨0, ![]⟩
abbrev S100000 : Shape := ⟨1, ![100000]⟩
abbrev S1200000x1 : Shape := ⟨2, ![1200000, 1]⟩
abbrev S100000x1 : Shape := ⟨2, ![100000, 1]⟩
abbrev S100000x64 : Shape := ⟨2, ![100000, 64]⟩
abbrev S1200000x64 : Shape := ⟨2, ![1200000, 64]⟩
abbrev S1x64 : Shape := ⟨2, ![1, 64]⟩

abbrev nBuf : Space → Nat
  | .hbm => 81
  | .vmem => 0
  | .smem => 0
  | _ => 0

abbrev bufTy : (tb : Table) → Fin (tcTables nBuf tb) → BufTy
  | .hbm, ⟨0, _⟩ => ⟨S100000x30, .f32⟩
  | .hbm, ⟨1, _⟩ => ⟨S30x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S1200000, .i32⟩
  | .hbm, ⟨6, _⟩ => ⟨S1200000, .i32⟩
  | .hbm, ⟨7, _⟩ => ⟨S_, .f32⟩
  | .hbm, ⟨8, _⟩ => ⟨S1200000, .f32⟩
  | .hbm, ⟨9, _⟩ => ⟨S_, .f32⟩
  | .hbm, ⟨10, _⟩ => ⟨S100000, .f32⟩
  | .hbm, ⟨11, _⟩ => ⟨S1200000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S1200000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000x30, .f32⟩
  | .hbm, ⟨31, _⟩ => ⟨S100000x30, .f32⟩
  | .hbm, ⟨32, _⟩ => ⟨S100000x64, .f32⟩
  | .hbm, ⟨33, _⟩ => ⟨S_, .i32⟩
  | .hbm, ⟨34, _⟩ => ⟨S1200000, .i32⟩
  | .hbm, ⟨35, _⟩ => ⟨S1200000, .i1⟩
  | .hbm, ⟨36, _⟩ => ⟨S_, .i32⟩
  | .hbm, ⟨37, _⟩ => ⟨S1200000, .i32⟩
  | .hbm, ⟨38, _⟩ => ⟨S1200000, .i32⟩
  | .hbm, ⟨39, _⟩ => ⟨S1200000, .i32⟩
  | .hbm, ⟨40, _⟩ => ⟨S1200000x1, .i32⟩
  | .hbm, ⟨41, _⟩ => ⟨S1200000x64, .f32⟩
  | .hbm, ⟨42, _⟩ => ⟨S_, .f32⟩
  | .hbm, ⟨43, _⟩ => ⟨S100000x64, .f32⟩
  | .hbm, ⟨44, _⟩ => ⟨S1200000x1, .i32⟩
  | .hbm, ⟨45, _⟩ => ⟨S100000x64, .f32⟩
  | .hbm, ⟨46, _⟩ => ⟨S100000x1, .f32⟩
  | .hbm, ⟨47, _⟩ => ⟨S100000x64, .f32⟩
  | .hbm, ⟨48, _⟩ => ⟨S100000x64, .f32⟩
  | .hbm, ⟨49, _⟩ => ⟨S1x64, .f32⟩
  | .hbm, ⟨50, _⟩ => ⟨S100000x64, .f32⟩
  | .hbm, ⟨51, _⟩ => ⟨S100000x64, .f32⟩
  | .hbm, ⟨52, _⟩ => ⟨S_, .f32⟩
  | .hbm, ⟨53, _⟩ => ⟨S100000x64, .f32⟩
  | .hbm, ⟨54, _⟩ => ⟨S100000x64, .f32⟩
  | .hbm, ⟨55, _⟩ => ⟨S100000x1, .f32⟩
  | .hbm, ⟨56, _⟩ => ⟨S100000x64, .f32⟩
  | .hbm, ⟨57, _⟩ => ⟨S100000x64, .f32⟩
  | .hbm, ⟨58, _⟩ => ⟨S100000x64, .f32⟩
  | .hbm, ⟨59, _⟩ => ⟨S_, .i32⟩
  | .hbm, ⟨60, _⟩ => ⟨S1200000, .i32⟩
  | .hbm, ⟨61, _⟩ => ⟨S1200000, .i1⟩
  | .hbm, ⟨62, _⟩ => ⟨S_, .i32⟩
  | .hbm, ⟨63, _⟩ => ⟨S1200000, .i32⟩
  | .hbm, ⟨64, _⟩ => ⟨S1200000, .i32⟩
  | .hbm, ⟨65, _⟩ => ⟨S1200000, .i32⟩
  | .hbm, ⟨66, _⟩ => ⟨S1200000x1, .i32⟩
  | .hbm, ⟨67, _⟩ => ⟨S1200000x64, .f32⟩
  | .hbm, ⟨68, _⟩ => ⟨S_, .f32⟩
  | .hbm, ⟨69, _⟩ => ⟨S100000x64, .f32⟩
  | .hbm, ⟨70, _⟩ => ⟨S1200000x1, .i32⟩
  | .hbm, ⟨71, _⟩ => ⟨S100000x64, .f32⟩
  | .hbm, ⟨72, _⟩ => ⟨S100000x1, .f32⟩
  | .hbm, ⟨73, _⟩ => ⟨S100000x64, .f32⟩
  | .hbm, ⟨74, _⟩ => ⟨S100000x64, .f32⟩
  | .hbm, ⟨75, _⟩ => ⟨S1x64, .f32⟩
  | .hbm, ⟨76, _⟩ => ⟨S100000x64, .f32⟩
  | .hbm, ⟨77, _⟩ => ⟨S100000x64, .f32⟩
  | .hbm, ⟨78, _⟩ => ⟨S_, .f32⟩
  | .hbm, ⟨79, _⟩ => ⟨S100000x64, .f32⟩
  | .hbm, ⟨80, _⟩ => ⟨S100000x64, .f32⟩
  | _, _ => ⟨S100000x30, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_cst_4 : Ref sig .tc := ⟨.hbm, 23, rfl⟩
abbrev main_v11 : Ref sig .tc := ⟨.hbm, 24, rfl⟩
abbrev main_v12 : Ref sig .tc := ⟨.hbm, 25, rfl⟩
abbrev main_cst_5 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c : Ref sig .tc := ⟨.hbm, 33, rfl⟩
abbrev main_v19 : Ref sig .tc := ⟨.hbm, 34, rfl⟩
abbrev main_v20 : Ref sig .tc := ⟨.hbm, 35, rfl⟩
abbrev main_c_6 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_7 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_call0_cst : Ref sig .tc := ⟨.hbm, 52, rfl⟩
abbrev main_call0_v0 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_c_8 : Ref sig .tc := ⟨.hbm, 59, rfl⟩
abbrev main_v40 : Ref sig .tc := ⟨.hbm, 60, rfl⟩
abbrev main_v41 : Ref sig .tc := ⟨.hbm, 61, rfl⟩
abbrev main_c_9 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_10 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_call1_cst : Ref sig .tc := ⟨.hbm, 78, rfl⟩
abbrev main_call1_v0 : Ref sig .tc := ⟨.hbm, 79, rfl⟩
abbrev main_v56 : Ref sig .tc := ⟨.hbm, 80, rfl⟩

abbrev nD : Nat := 1
abbrev τ : Topo := Topo.v7x

variable {F : FTy → Type} [FloatOps F]

class Facts₀ : Prop where
  bcast_S_S1200000 : S_.BroadcastsInDim S1200000 (![] : Fin 0 → Fin S1200000.rank)
  bcast_S_S100000 : S_.BroadcastsInDim S100000 (![] : Fin 0 → Fin S100000.rank)
  bcast_S1200000_S1200000x1_0 : S1200000.BroadcastsInDim S1200000x1 (![0] : Fin 1 → Fin S1200000x1.rank)
  bcast_S100000_S100000x1_0 : S100000.BroadcastsInDim S100000x1 (![0] : Fin 1 → Fin S100000x1.rank)
  bcast_S100000x1_S100000x30_0_1 : S100000x1.BroadcastsInDim S100000x30 (![0, 1] : Fin 2 → Fin S100000x30.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1200000x1_S1200000_n_0_0_1_wf : ScatterDims.WF S100000 S1200000x1 S1200000 [] [0] [0] 1
  dot_S100000x30_S30x64_S100000x64_1_0_0_1_n_n_wf : DotDims.WF S100000x30 S30x64 S100000x64 [1] [0] [0] [1] [] []
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S100000x64_S64x64_S100000x64_1_0_0_1_n_n_wf : DotDims.WF S100000x64 S64x64 S100000x64 [1] [0] [0] [1] [] []

variable [Facts₀]

def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def dot_S100000x30_S30x64_S100000x64_1_0_0_1_n_n : DotDims S100000x30 S30x64 S100000x64 where
  lhsContracting := [1]
  rhsContracting := [0]
  lhsNonContracting := [0]
  rhsNonContracting := [1]
  lhsBatch := []
  rhsBatch := []
  wf := dot_S100000x30_S30x64_S100000x64_1_0_0_1_n_n_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KernelRun.lean ====
/-
  The idealized kernel program's run with its result named.

  The program is eight segments: four stretches of host operations, each followed by one pipelined region. The
  buffer contents at the segment boundaries are a fold from the launch memory (`Gen.W0` … `Gen.W8`): a host
  stretch applies its operations, a region replaces its four arrays by what its write-backs leave. Every weakly fair
  execution terminates with every unscoped buffer at the last boundary's contents `Gen.W8`; in particular the
  result buffer holds `Gen.W8` there and the seven argument buffers hold what they were launched with.
-/
import proofs.«125327_j51771535786305_1_alg».proof.Proof.Gen.KernelIdeal.Frame

set_option maxRecDepth 16384

noncomputable section

namespace Cert.KernelIdeal.WholeRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with every unscoped buffer of every core at
    the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

/-- The same run read at the result buffer and at the seven arguments. -/
theorem run_result : θ_run defs (onTc (τ := τ) (main (F := F))) ⟨m, fun _ => 0, ρ⟩ (fun r => ∀ c : Dev nD,
      r.2.mem ((c.tc : Thread nD τ).loc main_v44) = W8 m ρ c (Proc.devRef .tc main_v44)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
      ⟨h c _ (mem_uc main_v44 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c)⟩)
    (run_all m ρ)

end Cert.KernelIdeal.WholeRun

end
-- ==== Proof.Spec.lean ====
/-
  The two dense layers of a graph convolution, as functions of whole arrays over the extended reals.

  One layer of the encoder is  relu( D_in^{-1/2} · A · (D_out^{-1/2} · h · W) + b ).  Its sparse middle
  (gathering rows along edges and summing them into destination rows) is the same operation in both programs; the
  two dense ends are what the kernels compute block by block and the reference computes at once:

  * `scaleMatmul`: row `r` of `h` is scaled by the `r`-th entry of a column of norms and multiplied into `W`,
      out (r, j) = Σ_k (h (r, k) · n (r, 0)) · W (k, j);
  * `scaleBiasRelu`: row `r` of the aggregate is scaled by the `r`-th norm, a bias row is added, negatives are cut,
      out (r, j) = max (a (r, j) · n (r, 0) + b (0, j)) 0.

  Both are stated index by index over literal shapes: 100000 nodes, 30 input features, 64 hidden features.
-/
import Idealize.ShloMosaic.PureOps.Ideal
import Idealize.ShloMosaic.Lib.ValueIdx

noncomputable section

namespace Cert.GraphConv

open Idealize.ShloMosaic Idealize.ShloMosaic.ValueIdx

abbrev SN30 : Shape := ⟨2, ![100000, 30]⟩
abbrev SN64 : Shape := ⟨2, ![100000, 64]⟩
abbrev SN1 : Shape := ⟨2, ![100000, 1]⟩
abbrev SW30 : Shape := ⟨2, ![30, 64]⟩
abbrev SW64 : Shape := ⟨2, ![64, 64]⟩
abbrev SB : Shape := ⟨2, ![1, 64]⟩

/-- Entry `(r, j)` of `(h ⊙ n) · W` for 30 input features: row `r` of `h`, each entry scaled by the norm of node `r`,
    against column `j` of `W`. -/
def scaleMatmul30At (h : SN30.Idx → EReal) (n : SN1.Idx → EReal) (w : SW30.Idx → EReal) (r : Fin 100000) (j : Fin 64) : EReal :=
  ∑ k : Fin 30, (h (ix2 r k) * n (ix2 r (0 : Fin 1))) * w (ix2 k j)

/-- `(h ⊙ n) · W` as a whole array, 30 input features. -/
def scaleMatmul30 (h : SN30.Idx → EReal) (n : SN1.Idx → EReal) (w : SW30.Idx → EReal) : SN64.Idx → EReal :=
  fun i => scaleMatmul30At h n w ⟨(i 0).val, (i 0).isLt⟩ ⟨(i 1).val, (i 1).isLt⟩

/-- Entry `(r, j)` of `(h ⊙ n) · W` for 64 input features. -/
def scaleMatmul64At (h : SN64.Idx → EReal) (n : SN1.Idx → EReal) (w : SW64.Idx → EReal) (r : Fin 100000) (j : Fin 64) : EReal :=
  ∑ k : Fin 64, (h (ix2 r k) * n (ix2 r (0 : Fin 1))) * w (ix2 k j)

/-- `(h ⊙ n) · W` as a whole array, 64 input features. -/
def scaleMatmul64 (h : SN64.Idx → EReal) (n : SN1.Idx → EReal) (w : SW64.Idx → EReal) : SN64.Idx → EReal :=
  fun i => scaleMatmul64At h n w ⟨(i 0).val, (i 0).isLt⟩ ⟨(i 1).val, (i 1).isLt⟩

/-- Entry `(r, j)` of `relu (a ⊙ n + b)`: the aggregate of node `r` scaled by its norm, plus the bias of feature `j`,
    negatives replaced by zero. -/
def scaleBiasReluAt (a : SN64.Idx → EReal) (n : SN1.Idx → EReal) (b : SB.Idx → EReal) (r : Fin 100000) (j : Fin 64) : EReal :=
  max (a (ix2 r j) * n (ix2 r (0 : Fin 1)) + b (ix2 (0 : Fin 1) j)) 0

/-- `relu (a ⊙ n + b)` as a whole array. -/
def scaleBiasRelu (a : SN64.Idx → EReal) (n : SN1.Idx → EReal) (b : SB.Idx → EReal) : SN64.Idx → EReal :=
  fun i => scaleBiasReluAt a n b ⟨(i 0).val, (i 0).isLt⟩ ⟨(i 1).val, (i 1).isLt⟩

theorem scaleMatmul30_ix2 (h : SN30.Idx → EReal) (n : SN1.Idx → EReal) (w : SW30.Idx → EReal) (r : Fin 100000) (j : Fin 64) :
    scaleMatmul30 h n w (ix2 r j) = scaleMatmul30At h n w r j := rfl

theorem scaleMatmul64_ix2 (h : SN64.Idx → EReal) (n : SN1.Idx → EReal) (w : SW64.Idx → EReal) (r : Fin 100000) (j : Fin 64) :
    scaleMatmul64 h n w (ix2 r j) = scaleMatmul64At h n w r j := rfl

theorem scaleBiasRelu_ix2 (a : SN64.Idx → EReal) (n : SN1.Idx → EReal) (b : SB.Idx → EReal) (r : Fin 100000) (j : Fin 64) :
    scaleBiasRelu a n b (ix2 r j) = scaleBiasReluAt a n b r j := rfl

end Cert.GraphConv

end
-- ==== Proof.PayMatmul.lean ====
/-
  The value a matmul body stores, read at one entry of its 5000 × 64 output block.

  The body loads a block of node features `x` (5000 rows), the matching column of norms `n` (5000 × 1) and the whole
  weight matrix `w`; it scales row `p` of `x` by `n (p, 0)`, narrows both operands to bf16 (the identity on extended
  reals) and multiplies into a zero accumulator. So entry `(p, q)` is  Σ_k (x (p, k) · n (p, 0)) · w (k, q).
  Stated once for the first layer (30 input features) and once for the second (64).
-/
import proofs.«125327_j51771535786305_1_alg».proof.Proof.Gen.KernelIdeal.Skeleton
import proofs.«125327_j51771535786305_1_alg».proof.Proof.Spec
import Idealize.ShloMosaic.Lib.ValueIdx
import Idealize.ShloMosaic.Lib.Pipeline.Value
import Idealize.ShloMosaic.PureOps.Ideal.Laws

noncomputable section
namespace Cert.KernelIdeal.Pay
open Idealize.ShloMosaic Idealize.ShloMosaic.ValueIdx Cert.KernelIdeal Cert.KernelIdeal.Gen

theorem k0_pay1_lhs0 (i : S5000x64.Idx) (q : dot_S5000x30_S30x64_S5000x64_1_0_0_1_n_n.contr.Idx) : (dot_S5000x30_S30x64_S5000x64_1_0_0_1_n_n.lhsIdx i q 0).val = (i 0).val := by
  unfold DotDims.lhsIdx
  rw [dif_neg (show ¬(0 : Fin S5000x30.rank) ∈ dot_S5000x30_S30x64_S5000x64_1_0_0_1_n_n.lhsBatch by decide), dif_pos (show (0 : Fin S5000x30.rank) ∈ dot_S5000x30_S30x64_S5000x64_1_0_0_1_n_n.lhsNonContracting by decide)]
  rfl
theorem k0_pay1_rhs1 (i : S5000x64.Idx) (q : dot_S5000x30_S30x64_S5000x64_1_0_0_1_n_n.contr.Idx) : (dot_S5000x30_S30x64_S5000x64_1_0_0_1_n_n.rhsIdx i q 1).val = (i 1).val := by
  unfold DotDims.rhsIdx
  rw [dif_neg (show ¬(1 : Fin S30x64.rank) ∈ dot_S5000x30_S30x64_S5000x64_1_0_0_1_n_n.rhsBatch by decide), dif_pos (show (1 : Fin S30x64.rank) ∈ dot_S5000x30_S30x64_S5000x64_1_0_0_1_n_n.rhsNonContracting by decide)]
  rfl

/-- A norm column broadcast along the feature axis reads the row's norm at every feature. -/
theorem k0_pay1_bcast (x1 : Vec Ideal S5000x1 .f32) (p : Fin 5000) (k : Fin 30) :
    broadcastTo S5000x30 (shapeCast S5000x1 x1 shapeCasts_S5000x1_S5000x1) broadcasts_S5000x1_S5000x30 (ix2 p k) = x1 (ix2 p (0 : Fin 1)) := by
  rw [shapeCast_self]
  exact broadcastTo_apply x1 broadcasts_S5000x1_S5000x30 (ix2 p k) (ix2 p (0 : Fin 1)) (fun a => match a with
    | ⟨0, _⟩ => by show p.val = if (5000 : Nat) = 1 then 0 else p.val; rw [if_neg (by decide)]
    | ⟨1, _⟩ => by show 0 = if (1 : Nat) = 1 then 0 else k.val; rw [if_pos rfl])

/-- Entry `(p, q)` of the block the matmul body stores: row `p` of the loaded feature block, each entry scaled by the
    row's norm, against column `q` of the weights. The two narrowings to bf16 are the identity on extended reals, and the
    product into a zero accumulator is the plain sum over the contracted axis. -/
theorem k0_pay1_apply (x0 : Vec Ideal S5000x30 .f32) (x1 : Vec Ideal S5000x1 .f32) (x2 : Vec Ideal S30x64 .f32) (p : Fin 5000) (q : Fin 64) :
    k0_pay1 (F := Ideal) x0 x1 x2 (ix2 p q) = ∑ k : Fin 30, (x0 (ix2 p k) * x1 (ix2 p (0 : Fin 1))) * x2 (ix2 k q) := by
  unfold k0_pay1
  simp only [matmul]
  rw [Ideal.matmul_constant_zero_apply, ← Equiv.sum_comp (ValueIdx.contrEquiv1 dot_S5000x30_S30x64_S5000x64_1_0_0_1_n_n 30 rfl rfl).symm]
  refine Finset.sum_congr rfl fun k _ => ?_
  have hk := ValueIdx.contrEquiv1_symm_val dot_S5000x30_S30x64_S5000x64_1_0_0_1_n_n 30 rfl rfl k
  have el : dot_S5000x30_S30x64_S5000x64_1_0_0_1_n_n.lhsIdx (ix2 p q) ((ValueIdx.contrEquiv1 dot_S5000x30_S30x64_S5000x64_1_0_0_1_n_n 30 rfl rfl).symm k) = ix2 p k := funext fun a => Fin.ext (by
    match a with
    | ⟨0, _⟩ => exact k0_pay1_lhs0 _ _
    | ⟨1, _⟩ => exact (dot_S5000x30_S30x64_S5000x64_1_0_0_1_n_n.lhsIdx_val_of_single rfl _ _).trans hk)
  have er : dot_S5000x30_S30x64_S5000x64_1_0_0_1_n_n.rhsIdx (ix2 p q) ((ValueIdx.contrEquiv1 dot_S5000x30_S30x64_S5000x64_1_0_0_1_n_n 30 rfl rfl).symm k) = ix2 k q := funext fun a => Fin.ext (by
    match a with
    | ⟨0, _⟩ => exact (dot_S5000x30_S30x64_S5000x64_1_0_0_1_n_n.rhsIdx_val_of_single rfl _ _).trans hk
    | ⟨1, _⟩ => exact k0_pay1_rhs1 _ _)
  rw [el, er, truncf_apply, truncf_apply, mulf_apply, k0_pay1_bcast]

theorem k2_pay1_lhs0 (i : S5000x64.Idx) (q : dot_S5000x64_S64x64_S5000x64_1_0_0_1_n_n.contr.Idx) : (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem k2_pay1_rhs1 (i : S5000x64.Idx) (q : dot_S5000x64_S64x64_S5000x64_1_0_0_1_n_n.contr.Idx) : (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- A norm column broadcast along the feature axis reads the row's norm at every feature. -/
theorem k2_pay1_bcast (x1 : Vec Ideal S5000x1 .f32) (p : Fin 5000) (k : Fin 64) :
    broadcastTo S5000x64 (shapeCast S5000x1 x1 shapeCasts_S5000x1_S5000x1) broadcasts_S5000x1_S5000x64 (ix2 p k) = x1 (ix2 p (0 : Fin 1)) := by
  rw [shapeCast_self]
  exact broadcastTo_apply x1 broadcasts_S5000x1_S5000x64 (ix2 p k) (ix2 p (0 : Fin 1)) (fun a => match a with
    | ⟨0, _⟩ => by show p.val = if (5000 : Nat) = 1 then 0 else p.val; rw [if_neg (by decide)]
    | ⟨1, _⟩ => by show 0 = if (1 : Nat) = 1 then 0 else k.val; rw [if_pos rfl])

/-- Entry `(p, q)` of the block the matmul body stores: row `p` of the loaded feature block, each entry scaled by the
    row's norm, against column `q` of the weights. The two narrowings to bf16 are the identity on extended reals, and the
    product into a zero accumulator is the plain sum over the contracted axis. -/
theorem k2_pay1_apply (x0 : Vec Ideal S5000x64 .f32) (x1 : Vec Ideal S5000x1 .f32) (x2 : Vec Ideal S64x64 .f32) (p : Fin 5000) (q : Fin 64) :
    k2_pay1 (F := Ideal) x0 x1 x2 (ix2 p q) = ∑ k : Fin 64, (x0 (ix2 p k) * x1 (ix2 p (0 : Fin 1))) * x2 (ix2 k q) := by
  unfold k2_pay1
  simp only [matmul]
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p q) ((ValueIdx.contrEquiv1 dot_S5000x64_S64x64_S5000x64_1_0_0_1_n_n 64 rfl rfl).symm k) = ix2 p k := funext fun a => Fin.ext (by
    match a with
    | ⟨0, _⟩ => exact k2_pay1_lhs0 _ _
    | ⟨1, _⟩ => exact (dot_S5000x64_S64x64_S5000x64_1_0_0_1_n_n.lhsIdx_val_of_single rfl _ _).trans hk)
  have er : dot_S5000x64_S64x64_S5000x64_1_0_0_1_n_n.rhsIdx (ix2 p q) ((ValueIdx.contrEquiv1 dot_S5000x64_S64x64_S5000x64_1_0_0_1_n_n 64 rfl rfl).symm k) = ix2 k q := funext fun a => Fin.ext (by
    match a with
    | ⟨0, _⟩ => exact (dot_S5000x64_S64x64_S5000x64_1_0_0_1_n_n.rhsIdx_val_of_single rfl _ _).trans hk
    | ⟨1, _⟩ => exact k2_pay1_rhs1 _ _)
  rw [el, er, truncf_apply, truncf_apply, mulf_apply, k2_pay1_bcast, shapeCast_self]

end Cert.KernelIdeal.Pay
end
-- ==== Proof.Region0.lean ====
/-
  Region 0 of the kernel program: node features scaled by the out-degree norm, times the first weight matrix.

  The region is a pipeline over 20 grid points. At point `t` its body sees rows 5000 t … 5000 t + 4999 of the two
  row-blocked inputs, the whole third input, and writes rows 5000 t … 5000 t + 4999 of the output. Here: what point
  `t` writes back is block `t` of ONE whole-array function of the arrays the region finds; the twenty blocks tile the
  output; hence the output array after the region is that function of the three input arrays.
-/
import proofs.«125327_j51771535786305_1_alg».proof.Proof.Gen.KernelIdeal.Frame
import proofs.«125327_j51771535786305_1_alg».proof.Proof.PayMatmul
import proofs.«125327_j51771535786305_1_alg».proof.Proof.Spec
import Idealize.ShloMosaic.Lib.Pipeline.Value
import Idealize.ShloMosaic.Lib.ValueIdx

set_option maxRecDepth 16384

noncomputable section

namespace Cert.KernelIdeal.Region0

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 20 grid points: the two row-blocked inputs and the output are at block row `t`,
    block column 0; the third input is the one whole block at the origin. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of block `t` is node `5000 t + p`. -/
def row0 (t : Fin cfg0.N) (p : Fin 5000) : Fin 100000 :=
  ⟨t.val * 5000 + p.val, by have h : t.val < 20 := lt_of_lt_of_eq t.isLt N_0; have := p.isLt; omega⟩

theorem emb0_0 (t : Fin cfg0.N) (p : Fin 5000) (k : Fin 30) :
    ((cfg0.win 0).blk t).view.emb (ix2 p k) = ix2 (n0 := 100000) (n1 := 30) (row0 t p) k := by
  obtain ⟨e0, e1, -, -, -, -, -, -⟩ := idx_facts0 t
  funext a; apply Fin.ext
  match a with
  | ⟨0, _⟩ => show win0_0.index t (0 : Fin 2) * 5000 + 1 * p.val = t.val * 5000 + p.val; omega
  | ⟨1, _⟩ => show win0_0.index t (1 : Fin 2) * 30 + 1 * k.val = k.val; omega

theorem emb0_1 (t : Fin cfg0.N) (p : Fin 5000) :
    ((cfg0.win 1).blk t).view.emb (ix2 p (0 : Fin 1)) = ix2 (n0 := 100000) (n1 := 1) (row0 t p) (0 : Fin 1) := by
  obtain ⟨-, -, e2, e3, -, -, -, -⟩ := idx_facts0 t
  funext a; apply Fin.ext
  match a with
  | ⟨0, _⟩ => show win0_1.index t (0 : Fin 2) * 5000 + 1 * p.val = t.val * 5000 + p.val; omega
  | ⟨1, _⟩ => show win0_1.index t (1 : Fin 2) * 1 + 1 * 0 = 0; omega

theorem emb0_2 (t : Fin cfg0.N) (k : Fin 30) (q : Fin 64) :
    ((cfg0.win 2).blk t).view.emb (ix2 k q) = ix2 (n0 := 30) (n1 := 64) k q := by
  obtain ⟨-, -, -, -, e4, e5, -, -⟩ := idx_facts0 t
  funext a; apply Fin.ext
  match a with
  | ⟨0, _⟩ => show win0_2.index t (0 : Fin 2) * 30 + 1 * k.val = k.val; omega
  | ⟨1, _⟩ => show win0_2.index t (1 : Fin 2) * 64 + 1 * q.val = q.val; omega

theorem emb0_3 (t : Fin cfg0.N) (p : Fin 5000) (q : Fin 64) :
    ((cfg0.win 3).blk t).view.emb (ix2 p q) = ix2 (n0 := 100000) (n1 := 64) (row0 t p) q := by
  obtain ⟨-, -, -, -, -, -, e6, e7⟩ := idx_facts0 t
  funext a; apply Fin.ext
  match a with
  | ⟨0, _⟩ => show win0_3.index t (0 : Fin 2) * 5000 + 1 * p.val = t.val * 5000 + p.val; omega
  | ⟨1, _⟩ => show win0_3.index t (1 : Fin 2) * 64 + 1 * q.val = q.val; omega

/-- Entry `(p, q)` of block `t`, written over the arrays' entries, is the layer's function at node `5000 t + p`. -/
theorem block0 (A0 : S100000x30.Idx → EReal) (A1 : S100000x1.Idx → EReal) (A2 : S30x64.Idx → EReal) (t : Fin cfg0.N) (p : Fin 5000) (q : Fin 64) :
    (∑ k : Fin 30, (A0 (((cfg0.win 0).blk t).view.emb (ix2 p k)) * A1 (((cfg0.win 1).blk t).view.emb (ix2 p (0 : Fin 1))))
      * A2 (((cfg0.win 2).blk t).view.emb (ix2 k q)))
    = Cert.GraphConv.scaleMatmul30 A0 A1 A2 (((cfg0.win 3).blk t).view.emb (ix2 p q)) := by
  rw [emb0_3 t p q, Cert.GraphConv.scaleMatmul30_ix2, emb0_1 t p]
  unfold Cert.GraphConv.scaleMatmul30At
  refine Finset.sum_congr rfl fun k _ => ?_
  rw [emb0_0 t p k, emb0_2 t k q]

/-- What point `t` writes back is block `t` of the layer's whole-array function of the arrays the region finds. -/
theorem flushed0 (c : Dev nD) (t : Fin cfg0.N) :
    (dat0 (F := Ideal) V c).flushed 3 t
      = ((cfg0.win 3).blk t).view.read (Elt Ideal) (Cert.GraphConv.scaleMatmul30 (V c main_arg0) (V c main_v15) (V c main_arg1)) := by
  show (cfg0.win 3).cut (grid0.coords t) ((dat0 (F := Ideal) V c).after 3 t) = _
  rw [after0_3]
  unfold out0_3
  rw [View.canon_unit_zero hz]
  simp only [View.ld_unit_zero (S := S5000x30) hz, View.ld_unit_zero (S := S5000x1) hz, View.ld_unit_zero (S := S30x64) hz]
  funext j
  obtain ⟨p, q, rfl⟩ : ∃ (p : Fin 5000) (q : Fin 64), j = ix2 p q := ⟨j 0, j 1, eq_ix2 j⟩
  refine (Cert.KernelIdeal.Pay.k0_pay1_apply (iblk0 V c 0 t) (iblk0 V c 1 t) (iblk0 V c 2 t) p q).trans ?_
  exact block0 (V c main_arg0) (V c main_v15) (V c main_arg1) t p q

/-- An index of the output array is in point `t`'s block iff each coordinate is in the block's range on its axis. -/
theorem mem_blk0 (t : Fin cfg0.N) (i : S100000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v16).slice (win0_3.rect t)).set ↔ _
  rw [View.set_slice_whole, Rect.mem_set_unit]
  exact Iff.rfl

/-- Node `r` lies in the block of point `r / 5000`: the twenty row blocks tile the output. -/
theorem cover0 (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  have ht : (i 0).val / 5000 < cfg0.N := lt_of_lt_of_eq (by omega : (i 0).val / 5000 < 20) N_0.symm
  refine ⟨⟨(i 0).val / 5000, ht⟩, flush0_3 _, ?_⟩
  obtain ⟨-, -, -, -, -, -, e6, e7⟩ := idx_facts0 ⟨(i 0).val / 5000, ht⟩
  rw [mem_blk0]
  intro a
  match a with
  | ⟨0, _⟩ =>
    show win0_3.index ⟨(i 0).val / 5000, ht⟩ (0 : Fin 2) * 5000 ≤ (i 0).val ∧ (i 0).val < win0_3.index ⟨(i 0).val / 5000, ht⟩ (0 : Fin 2) * 5000 + 5000
    rw [e6]; show (i 0).val / 5000 * 5000 ≤ (i 0).val ∧ (i 0).val < (i 0).val / 5000 * 5000 + 5000; omega
  | ⟨1, _⟩ =>
    show win0_3.index ⟨(i 0).val / 5000, ht⟩ (1 : Fin 2) * 64 ≤ (i 1).val ∧ (i 1).val < win0_3.index ⟨(i 0).val / 5000, ht⟩ (1 : Fin 2) * 64 + 64
    rw [e7]; omega

/-- The output array after the region: the layer's function of the three input arrays as the region found them. -/
theorem final0 (c : Dev nD) :
    (dat0 (F := Ideal) V c).arrAt 3 cfg0.N = Cert.GraphConv.scaleMatmul30 (V c main_arg0) (V c main_v15) (V c main_arg1) :=
  (dat0 (F := Ideal) V c).arrAt_eq_of_cover 3 _ (fun t _ => flushed0 V c t) cover0

end Cert.KernelIdeal.Region0

end
-- ==== Proof.PayPost.lean ====
/-
  The value a post-processing body stores, read at one entry of its 5000 × 64 output block.

  The body loads a block of aggregated features `a` (5000 rows), the matching column of norms `n` (5000 × 1) and the
  bias row `b` (1 × 64); entry `(p, q)` of what it stores is  max (a (p, q) · n (p, 0) + b (0, q)) 0.
  Stated once per layer (the two bodies are the same text).
-/
import proofs.«125327_j51771535786305_1_alg».proof.Proof.Gen.KernelIdeal.Skeleton
import proofs.«125327_j51771535786305_1_alg».proof.Proof.Spec
import Idealize.ShloMosaic.Lib.ValueIdx
import Idealize.ShloMosaic.Lib.Pipeline.Value
import Idealize.ShloMosaic.PureOps.Ideal.Laws

noncomputable section
namespace Cert.KernelIdeal.Pay
open Idealize.ShloMosaic Idealize.ShloMosaic.ValueIdx Cert.KernelIdeal Cert.KernelIdeal.Gen

/-- A norm column broadcast along the feature axis reads the row's norm at every feature. -/
theorem k1_pay1_norm (x1 : Vec Ideal S5000x1 .f32) (p : Fin 5000) (q : Fin 64) :
    broadcastTo S5000x64 (shapeCast S5000x1 x1 shapeCasts_S5000x1_S5000x1) broadcasts_S5000x1_S5000x64 (ix2 p q) = x1 (ix2 p (0 : Fin 1)) := by
  rw [shapeCast_self]
  exact broadcastTo_apply x1 broadcasts_S5000x1_S5000x64 (ix2 p q) (ix2 p (0 : Fin 1)) (fun a => match a with
    | ⟨0, _⟩ => by show p.val = if (5000 : Nat) = 1 then 0 else p.val; rw [if_neg (by decide)]
    | ⟨1, _⟩ => by show 0 = if (1 : Nat) = 1 then 0 else q.val; rw [if_pos rfl])

/-- A bias row broadcast along the node axis reads the feature's bias at every node. -/
theorem k1_pay1_bias (x2 : Vec Ideal S1x64 .f32) (p : Fin 5000) (q : Fin 64) :
    broadcastTo S5000x64 (shapeCast S1x64 x2 shapeCasts_S1x64_S1x64) broadcasts_S1x64_S5000x64 (ix2 p q) = x2 (ix2 (0 : Fin 1) q) := by
  rw [shapeCast_self]
  exact broadcastTo_apply x2 broadcasts_S1x64_S5000x64 (ix2 p q) (ix2 (0 : Fin 1) q) (fun a => match a with
    | ⟨0, _⟩ => by show 0 = if (1 : Nat) = 1 then 0 else p.val; rw [if_pos rfl]
    | ⟨1, _⟩ => by show q.val = if (64 : Nat) = 1 then 0 else q.val; rw [if_neg (by decide)])

/-- Entry `(p, q)` of the block the post-processing body stores: the aggregate scaled by the row's norm, plus the
    feature's bias, cut below at zero (the splat constant is the word of 0.0). -/
theorem k1_pay1_apply (x0 : Vec Ideal S5000x64 .f32) (x1 : Vec Ideal S5000x1 .f32) (x2 : Vec Ideal S1x64 .f32) (p : Fin 5000) (q : Fin 64) :
    k1_pay1 (F := Ideal) x0 x1 x2 (ix2 p q) = max (x0 (ix2 p q) * x1 (ix2 p (0 : Fin 1)) + x2 (ix2 (0 : Fin 1) q)) 0 := by
  unfold k1_pay1
  rw [maximumf_apply, addf_apply, mulf_apply, shapeCast_self, k1_pay1_norm, k1_pay1_bias, broadcast_apply]
  show max _ (Ideal.ofBits .f32 0x00000000#32) = _
  rw [Ideal.ofBits_zero_f32]

/-- A norm column broadcast along the feature axis reads the row's norm at every feature. -/
theorem k3_pay1_norm (x1 : Vec Ideal S5000x1 .f32) (p : Fin 5000) (q : Fin 64) :
    broadcastTo S5000x64 (shapeCast S5000x1 x1 shapeCasts_S5000x1_S5000x1) broadcasts_S5000x1_S5000x64 (ix2 p q) = x1 (ix2 p (0 : Fin 1)) := by
  rw [shapeCast_self]
  exact broadcastTo_apply x1 broadcasts_S5000x1_S5000x64 (ix2 p q) (ix2 p (0 : Fin 1)) (fun a => match a with
    | ⟨0, _⟩ => by show p.val = if (5000 : Nat) = 1 then 0 else p.val; rw [if_neg (by decide)]
    | ⟨1, _⟩ => by show 0 = if (1 : Nat) = 1 then 0 else q.val; rw [if_pos rfl])

/-- A bias row broadcast along the node axis reads the feature's bias at every node. -/
theorem k3_pay1_bias (x2 : Vec Ideal S1x64 .f32) (p : Fin 5000) (q : Fin 64) :
    broadcastTo S5000x64 (shapeCast S1x64 x2 shapeCasts_S1x64_S1x64) broadcasts_S1x64_S5000x64 (ix2 p q) = x2 (ix2 (0 : Fin 1) q) := by
  rw [shapeCast_self]
  exact broadcastTo_apply x2 broadcasts_S1x64_S5000x64 (ix2 p q) (ix2 (0 : Fin 1) q) (fun a => match a with
    | ⟨0, _⟩ => by show 0 = if (1 : Nat) = 1 then 0 else p.val; rw [if_pos rfl]
    | ⟨1, _⟩ => by show q.val = if (64 : Nat) = 1 then 0 else q.val; rw [if_neg (by decide)])

/-- Entry `(p, q)` of the block the post-processing body stores: the aggregate scaled by the row's norm, plus the
    feature's bias, cut below at zero (the splat constant is the word of 0.0). -/
theorem k3_pay1_apply (x0 : Vec Ideal S5000x64 .f32) (x1 : Vec Ideal S5000x1 .f32) (x2 : Vec Ideal S1x64 .f32) (p : Fin 5000) (q : Fin 64) :
    k3_pay1 (F := Ideal) x0 x1 x2 (ix2 p q) = max (x0 (ix2 p q) * x1 (ix2 p (0 : Fin 1)) + x2 (ix2 (0 : Fin 1) q)) 0 := by
  unfold k3_pay1
  rw [maximumf_apply, addf_apply, mulf_apply, shapeCast_self, k3_pay1_norm, k3_pay1_bias, broadcast_apply]
  show max _ (Ideal.ofBits .f32 0x00000000#32) = _
  rw [Ideal.ofBits_zero_f32]

end Cert.KernelIdeal.Pay
end
-- ==== Proof.Region1.lean ====
/-
  Region 1 of the kernel program: the first layer's aggregate scaled by the in-degree norm, plus bias, cut at zero.

  The region is a pipeline over 20 grid points. At point `t` its body sees rows 5000 t … 5000 t + 4999 of the two
  row-blocked inputs, the whole third input, and writes rows 5000 t … 5000 t + 4999 of the output. Here: what point
  `t` writes back is block `t` of ONE whole-array function of the arrays the region finds; the twenty blocks tile the
  output; hence the output array after the region is that function of the three input arrays.
-/
import proofs.«125327_j51771535786305_1_alg».proof.Proof.Gen.KernelIdeal.Frame
import proofs.«125327_j51771535786305_1_alg».proof.Proof.PayPost
import proofs.«125327_j51771535786305_1_alg».proof.Proof.Spec
import Idealize.ShloMosaic.Lib.Pipeline.Value
import Idealize.ShloMosaic.Lib.ValueIdx

set_option maxRecDepth 16384

noncomputable section

namespace Cert.KernelIdeal.Region1

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 20 grid points: the two row-blocked inputs and the output are at block row `t`,
    block column 0; the third input is the one whole block at the origin. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row `p` of block `t` is node `5000 t + p`. -/
def row1 (t : Fin cfg1.N) (p : Fin 5000) : Fin 100000 :=
  ⟨t.val * 5000 + p.val, by have h : t.val < 20 := lt_of_lt_of_eq t.isLt N_1; have := p.isLt; omega⟩

theorem emb1_0 (t : Fin cfg1.N) (p : Fin 5000) (q : Fin 64) :
    ((cfg1.win 0).blk t).view.emb (ix2 p q) = ix2 (n0 := 100000) (n1 := 64) (row1 t p) q := by
  obtain ⟨e0, e1, -, -, -, -, -, -⟩ := idx_facts1 t
  funext a; apply Fin.ext
  match a with
  | ⟨0, _⟩ => show win1_0.index t (0 : Fin 2) * 5000 + 1 * p.val = t.val * 5000 + p.val; omega
  | ⟨1, _⟩ => show win1_0.index t (1 : Fin 2) * 64 + 1 * q.val = q.val; omega

theorem emb1_1 (t : Fin cfg1.N) (p : Fin 5000) :
    ((cfg1.win 1).blk t).view.emb (ix2 p (0 : Fin 1)) = ix2 (n0 := 100000) (n1 := 1) (row1 t p) (0 : Fin 1) := by
  obtain ⟨-, -, e2, e3, -, -, -, -⟩ := idx_facts1 t
  funext a; apply Fin.ext
  match a with
  | ⟨0, _⟩ => show win1_1.index t (0 : Fin 2) * 5000 + 1 * p.val = t.val * 5000 + p.val; omega
  | ⟨1, _⟩ => show win1_1.index t (1 : Fin 2) * 1 + 1 * 0 = 0; omega

theorem emb1_2 (t : Fin cfg1.N) (q : Fin 64) :
    ((cfg1.win 2).blk t).view.emb (ix2 (0 : Fin 1) q) = ix2 (n0 := 1) (n1 := 64) (0 : Fin 1) q := by
  obtain ⟨-, -, -, -, e4, e5, -, -⟩ := idx_facts1 t
  funext a; apply Fin.ext
  match a with
  | ⟨0, _⟩ => show win1_2.index t (0 : Fin 2) * 1 + 1 * 0 = 0; omega
  | ⟨1, _⟩ => show win1_2.index t (1 : Fin 2) * 64 + 1 * q.val = q.val; omega

theorem emb1_3 (t : Fin cfg1.N) (p : Fin 5000) (q : Fin 64) :
    ((cfg1.win 3).blk t).view.emb (ix2 p q) = ix2 (n0 := 100000) (n1 := 64) (row1 t p) q := by
  obtain ⟨-, -, -, -, -, -, e6, e7⟩ := idx_facts1 t
  funext a; apply Fin.ext
  match a with
  | ⟨0, _⟩ => show win1_3.index t (0 : Fin 2) * 5000 + 1 * p.val = t.val * 5000 + p.val; omega
  | ⟨1, _⟩ => show win1_3.index t (1 : Fin 2) * 64 + 1 * q.val = q.val; omega

/-- Entry `(p, q)` of block `t`, written over the arrays' entries, is the layer's function at node `5000 t + p`. -/
theorem block1 (A0 : S100000x64.Idx → EReal) (A1 : S100000x1.Idx → EReal) (A2 : S1x64.Idx → EReal) (t : Fin cfg1.N) (p : Fin 5000) (q : Fin 64) :
    max (A0 (((cfg1.win 0).blk t).view.emb (ix2 p q)) * A1 (((cfg1.win 1).blk t).view.emb (ix2 p (0 : Fin 1)))
      + A2 (((cfg1.win 2).blk t).view.emb (ix2 (0 : Fin 1) q))) 0
    = Cert.GraphConv.scaleBiasRelu A0 A1 A2 (((cfg1.win 3).blk t).view.emb (ix2 p q)) := by
  rw [emb1_3 t p q, Cert.GraphConv.scaleBiasRelu_ix2, emb1_1 t p, emb1_0 t p q, emb1_2 t q]
  rfl

/-- What point `t` writes back is block `t` of the layer's whole-array function of the arrays the region finds. -/
theorem flushed1 (c : Dev nD) (t : Fin cfg1.N) :
    (dat1 (F := Ideal) V c).flushed 3 t
      = ((cfg1.win 3).blk t).view.read (Elt Ideal) (Cert.GraphConv.scaleBiasRelu (V c main_v26) (V c main_v28) (V c main_v27)) := by
  show (cfg1.win 3).cut (grid1.coords t) ((dat1 (F := Ideal) V c).after 3 t) = _
  rw [after1_3]
  unfold out1_3
  rw [View.canon_unit_zero hz]
  simp only [View.ld_unit_zero (S := S5000x64) hz, View.ld_unit_zero (S := S5000x1) hz, View.ld_unit_zero (S := S1x64) hz]
  funext j
  obtain ⟨p, q, rfl⟩ : ∃ (p : Fin 5000) (q : Fin 64), j = ix2 p q := ⟨j 0, j 1, eq_ix2 j⟩
  refine (Cert.KernelIdeal.Pay.k1_pay1_apply (iblk1 V c 0 t) (iblk1 V c 1 t) (iblk1 V c 2 t) p q).trans ?_
  exact block1 (V c main_v26) (V c main_v28) (V c main_v27) t p q

/-- An index of the output array is in point `t`'s block iff each coordinate is in the block's range on its axis. -/
theorem mem_blk1 (t : Fin cfg1.N) (i : S100000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v29).slice (win1_3.rect t)).set ↔ _
  rw [View.set_slice_whole, Rect.mem_set_unit]
  exact Iff.rfl

/-- Node `r` lies in the block of point `r / 5000`: the twenty row blocks tile the output. -/
theorem cover1 (i : S100000x64.Idx) : ∃ t : Fin cfg1.N, (cfg1.win 3).flush t = true ∧ i ∈ ((cfg1.win 3).blk t).view.set := by
  have hi0 : (i 0).val < 100000 := (i 0).isLt
  have hi1 : (i 1).val < 64 := (i 1).isLt
  have ht : (i 0).val / 5000 < cfg1.N := lt_of_lt_of_eq (by omega : (i 0).val / 5000 < 20) N_1.symm
  refine ⟨⟨(i 0).val / 5000, ht⟩, flush1_3 _, ?_⟩
  obtain ⟨-, -, -, -, -, -, e6, e7⟩ := idx_facts1 ⟨(i 0).val / 5000, ht⟩
  rw [mem_blk1]
  intro a
  match a with
  | ⟨0, _⟩ =>
    show win1_3.index ⟨(i 0).val / 5000, ht⟩ (0 : Fin 2) * 5000 ≤ (i 0).val ∧ (i 0).val < win1_3.index ⟨(i 0).val / 5000, ht⟩ (0 : Fin 2) * 5000 + 5000
    rw [e6]; show (i 0).val / 5000 * 5000 ≤ (i 0).val ∧ (i 0).val < (i 0).val / 5000 * 5000 + 5000; omega
  | ⟨1, _⟩ =>
    show win1_3.index ⟨(i 0).val / 5000, ht⟩ (1 : Fin 2) * 64 ≤ (i 1).val ∧ (i 1).val < win1_3.index ⟨(i 0).val / 5000, ht⟩ (1 : Fin 2) * 64 + 64
    rw [e7]; omega

/-- The output array after the region: the layer's function of the three input arrays as the region found them. -/
theorem final1 (c : Dev nD) :
    (dat1 (F := Ideal) V c).arrAt 3 cfg1.N = Cert.GraphConv.scaleBiasRelu (V c main_v26) (V c main_v28) (V c main_v27) :=
  (dat1 (F := Ideal) V c).arrAt_eq_of_cover 3 _ (fun t _ => flushed1 V c t) cover1

end Cert.KernelIdeal.Region1

end
-- ==== Proof.Region2.lean ====
/-
  Region 2 of the kernel program: hidden features scaled by the out-degree norm, times the second weight matrix.

  The region is a pipeline over 20 grid points. At point `t` its body sees rows 5000 t … 5000 t + 4999 of the two
  row-blocked inputs, the whole third input, and writes rows 5000 t … 5000 t + 4999 of the output. Here: what point
  `t` writes back is block `t` of ONE whole-array function of the arrays the region finds; the twenty blocks tile the
  output; hence the output array after the region is that function of the three input arrays.
-/
import proofs.«125327_j51771535786305_1_alg».proof.Proof.Gen.KernelIdeal.Frame
import proofs.«125327_j51771535786305_1_alg».proof.Proof.PayMatmul
import proofs.«125327_j51771535786305_1_alg».proof.Proof.Spec
import Idealize.ShloMosaic.Lib.Pipeline.Value
import Idealize.ShloMosaic.Lib.ValueIdx

set_option maxRecDepth 16384

noncomputable section

namespace Cert.KernelIdeal.Region2

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 20 grid points: the two row-blocked inputs and the output are at block row `t`,
    block column 0; the third input is the one whole block at the origin. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Row `p` of block `t` is node `5000 t + p`. -/
def row2 (t : Fin cfg2.N) (p : Fin 5000) : Fin 100000 :=
  ⟨t.val * 5000 + p.val, by have h : t.val < 20 := lt_of_lt_of_eq t.isLt N_2; have := p.isLt; omega⟩

theorem emb2_0 (t : Fin cfg2.N) (p : Fin 5000) (k : Fin 64) :
    ((cfg2.win 0).blk t).view.emb (ix2 p k) = ix2 (n0 := 100000) (n1 := 64) (row2 t p) k := by
  obtain ⟨e0, e1, -, -, -, -, -, -⟩ := idx_facts2 t
  funext a; apply Fin.ext
  match a with
  | ⟨0, _⟩ => show win2_0.index t (0 : Fin 2) * 5000 + 1 * p.val = t.val * 5000 + p.val; omega
  | ⟨1, _⟩ => show win2_0.index t (1 : Fin 2) * 64 + 1 * k.val = k.val; omega

theorem emb2_1 (t : Fin cfg2.N) (p : Fin 5000) :
    ((cfg2.win 1).blk t).view.emb (ix2 p (0 : Fin 1)) = ix2 (n0 := 100000) (n1 := 1) (row2 t p) (0 : Fin 1) := by
  obtain ⟨-, -, e2, e3, -, -, -, -⟩ := idx_facts2 t
  funext a; apply Fin.ext
  match a with
  | ⟨0, _⟩ => show win2_1.index t (0 : Fin 2) * 5000 + 1 * p.val = t.val * 5000 + p.val; omega
  | ⟨1, _⟩ => show win2_1.index t (1 : Fin 2) * 1 + 1 * 0 = 0; omega

theorem emb2_2 (t : Fin cfg2.N) (k : Fin 64) (q : Fin 64) :
    ((cfg2.win 2).blk t).view.emb (ix2 k q) = ix2 (n0 := 64) (n1 := 64) k q := by
  obtain ⟨-, -, -, -, e4, e5, -, -⟩ := idx_facts2 t
  funext a; apply Fin.ext
  match a with
  | ⟨0, _⟩ => show win2_2.index t (0 : Fin 2) * 64 + 1 * k.val = k.val; omega
  | ⟨1, _⟩ => show win2_2.index t (1 : Fin 2) * 64 + 1 * q.val = q.val; omega

theorem emb2_3 (t : Fin cfg2.N) (p : Fin 5000) (q : Fin 64) :
    ((cfg2.win 3).blk t).view.emb (ix2 p q) = ix2 (n0 := 100000) (n1 := 64) (row2 t p) q := by
  obtain ⟨-, -, -, -, -, -, e6, e7⟩ := idx_facts2 t
  funext a; apply Fin.ext
  match a with
  | ⟨0, _⟩ => show win2_3.index t (0 : Fin 2) * 5000 + 1 * p.val = t.val * 5000 + p.val; omega
  | ⟨1, _⟩ => show win2_3.index t (1 : Fin 2) * 64 + 1 * q.val = q.val; omega

/-- Entry `(p, q)` of block `t`, written over the arrays' entries, is the layer's function at node `5000 t + p`. -/
theorem block2 (A0 : S100000x64.Idx → EReal) (A1 : S100000x1.Idx → EReal) (A2 : S64x64.Idx → EReal) (t : Fin cfg2.N) (p : Fin 5000) (q : Fin 64) :
    (∑ k : Fin 64, (A0 (((cfg2.win 0).blk t).view.emb (ix2 p k)) * A1 (((cfg2.win 1).blk t).view.emb (ix2 p (0 : Fin 1))))
      * A2 (((cfg2.win 2).blk t).view.emb (ix2 k q)))
    = Cert.GraphConv.scaleMatmul64 A0 A1 A2 (((cfg2.win 3).blk t).view.emb (ix2 p q)) := by
  rw [emb2_3 t p q, Cert.GraphConv.scaleMatmul64_ix2, emb2_1 t p]
  unfold Cert.GraphConv.scaleMatmul64At
  refine Finset.sum_congr rfl fun k _ => ?_
  rw [emb2_0 t p k, emb2_2 t k q]

/-- What point `t` writes back is block `t` of the layer's whole-array function of the arrays the region finds. -/
theorem flushed2 (c : Dev nD) (t : Fin cfg2.N) :
    (dat2 (F := Ideal) V c).flushed 3 t
      = ((cfg2.win 3).blk t).view.read (Elt Ideal) (Cert.GraphConv.scaleMatmul64 (V c main_v29) (V c main_v30) (V c main_arg3)) := by
  show (cfg2.win 3).cut (grid2.coords t) ((dat2 (F := Ideal) V c).after 3 t) = _
  rw [after2_3]
  unfold out2_3
  rw [View.canon_unit_zero hz]
  simp only [View.ld_unit_zero (S := S5000x64) hz, View.ld_unit_zero (S := S5000x1) hz, View.ld_unit_zero (S := S64x64) hz]
  funext j
  obtain ⟨p, q, rfl⟩ : ∃ (p : Fin 5000) (q : Fin 64), j = ix2 p q := ⟨j 0, j 1, eq_ix2 j⟩
  refine (Cert.KernelIdeal.Pay.k2_pay1_apply (iblk2 V c 0 t) (iblk2 V c 1 t) (iblk2 V c 2 t) p q).trans ?_
  exact block2 (V c main_v29) (V c main_v30) (V c main_arg3) t p q

/-- An index of the output array is in point `t`'s block iff each coordinate is in the block's range on its axis. -/
theorem mem_blk2 (t : Fin cfg2.N) (i : S100000x64.Idx) :
    i ∈ ((cfg2.win 3).blk t).view.set ↔ ∀ a : Fin 2, win2_3.index t a * S5000x64.size a ≤ (i a).val ∧ (i a).val < win2_3.index t a * S5000x64.size a + S5000x64.size a := by
  show i ∈ ((View.whole main_v31).slice (win2_3.rect t)).set ↔ _
  rw [View.set_slice_whole, Rect.mem_set_unit]
  exact Iff.rfl

/-- Node `r` lies in the block of point `r / 5000`: the twenty row blocks tile the output. -/
theorem cover2 (i : S100000x64.Idx) : ∃ t : Fin cfg2.N, (cfg2.win 3).flush t = true ∧ i ∈ ((cfg2.win 3).blk t).view.set := by
  have hi0 : (i 0).val < 100000 := (i 0).isLt
  have hi1 : (i 1).val < 64 := (i 1).isLt
  have ht : (i 0).val / 5000 < cfg2.N := lt_of_lt_of_eq (by omega : (i 0).val / 5000 < 20) N_2.symm
  refine ⟨⟨(i 0).val / 5000, ht⟩, flush2_3 _, ?_⟩
  obtain ⟨-, -, -, -, -, -, e6, e7⟩ := idx_facts2 ⟨(i 0).val / 5000, ht⟩
  rw [mem_blk2]
  intro a
  match a with
  | ⟨0, _⟩ =>
    show win2_3.index ⟨(i 0).val / 5000, ht⟩ (0 : Fin 2) * 5000 ≤ (i 0).val ∧ (i 0).val < win2_3.index ⟨(i 0).val / 5000, ht⟩ (0 : Fin 2) * 5000 + 5000
    rw [e6]; show (i 0).val / 5000 * 5000 ≤ (i 0).val ∧ (i 0).val < (i 0).val / 5000 * 5000 + 5000; omega
  | ⟨1, _⟩ =>
    show win2_3.index ⟨(i 0).val / 5000, ht⟩ (1 : Fin 2) * 64 ≤ (i 1).val ∧ (i 1).val < win2_3.index ⟨(i 0).val / 5000, ht⟩ (1 : Fin 2) * 64 + 64
    rw [e7]; omega

/-- The output array after the region: the layer's function of the three input arrays as the region found them. -/
theorem final2 (c : Dev nD) :
    (dat2 (F := Ideal) V c).arrAt 3 cfg2.N = Cert.GraphConv.scaleMatmul64 (V c main_v29) (V c main_v30) (V c main_arg3) :=
  (dat2 (F := Ideal) V c).arrAt_eq_of_cover 3 _ (fun t _ => flushed2 V c t) cover2

end Cert.KernelIdeal.Region2

end
-- ==== Proof.Region3.lean ====
/-
  Region 3 of the kernel program: the second layer's aggregate scaled by the in-degree norm, plus bias, cut at zero.

  The region is a pipeline over 20 grid points. At point `t` its body sees rows 5000 t … 5000 t + 4999 of the two
  row-blocked inputs, the whole third input, and writes rows 5000 t … 5000 t + 4999 of the output. Here: what point
  `t` writes back is block `t` of ONE whole-array function of the arrays the region finds; the twenty blocks tile the
  output; hence the output array after the region is that function of the three input arrays.
-/
import proofs.«125327_j51771535786305_1_alg».proof.Proof.Gen.KernelIdeal.Frame
import proofs.«125327_j51771535786305_1_alg».proof.Proof.PayPost
import proofs.«125327_j51771535786305_1_alg».proof.Proof.Spec
import Idealize.ShloMosaic.Lib.Pipeline.Value
import Idealize.ShloMosaic.Lib.ValueIdx

set_option maxRecDepth 16384

noncomputable section

namespace Cert.KernelIdeal.Region3

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 20 grid points: the two row-blocked inputs and the output are at block row `t`,
    block column 0; the third input is the one whole block at the origin. -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- Row `p` of block `t` is node `5000 t + p`. -/
def row3 (t : Fin cfg3.N) (p : Fin 5000) : Fin 100000 :=
  ⟨t.val * 5000 + p.val, by have h : t.val < 20 := lt_of_lt_of_eq t.isLt N_3; have := p.isLt; omega⟩

theorem emb3_0 (t : Fin cfg3.N) (p : Fin 5000) (q : Fin 64) :
    ((cfg3.win 0).blk t).view.emb (ix2 p q) = ix2 (n0 := 100000) (n1 := 64) (row3 t p) q := by
  obtain ⟨e0, e1, -, -, -, -, -, -⟩ := idx_facts3 t
  funext a; apply Fin.ext
  match a with
  | ⟨0, _⟩ => show win3_0.index t (0 : Fin 2) * 5000 + 1 * p.val = t.val * 5000 + p.val; omega
  | ⟨1, _⟩ => show win3_0.index t (1 : Fin 2) * 64 + 1 * q.val = q.val; omega

theorem emb3_1 (t : Fin cfg3.N) (p : Fin 5000) :
    ((cfg3.win 1).blk t).view.emb (ix2 p (0 : Fin 1)) = ix2 (n0 := 100000) (n1 := 1) (row3 t p) (0 : Fin 1) := by
  obtain ⟨-, -, e2, e3, -, -, -, -⟩ := idx_facts3 t
  funext a; apply Fin.ext
  match a with
  | ⟨0, _⟩ => show win3_1.index t (0 : Fin 2) * 5000 + 1 * p.val = t.val * 5000 + p.val; omega
  | ⟨1, _⟩ => show win3_1.index t (1 : Fin 2) * 1 + 1 * 0 = 0; omega

theorem emb3_2 (t : Fin cfg3.N) (q : Fin 64) :
    ((cfg3.win 2).blk t).view.emb (ix2 (0 : Fin 1) q) = ix2 (n0 := 1) (n1 := 64) (0 : Fin 1) q := by
  obtain ⟨-, -, -, -, e4, e5, -, -⟩ := idx_facts3 t
  funext a; apply Fin.ext
  match a with
  | ⟨0, _⟩ => show win3_2.index t (0 : Fin 2) * 1 + 1 * 0 = 0; omega
  | ⟨1, _⟩ => show win3_2.index t (1 : Fin 2) * 64 + 1 * q.val = q.val; omega

theorem emb3_3 (t : Fin cfg3.N) (p : Fin 5000) (q : Fin 64) :
    ((cfg3.win 3).blk t).view.emb (ix2 p q) = ix2 (n0 := 100000) (n1 := 64) (row3 t p) q := by
  obtain ⟨-, -, -, -, -, -, e6, e7⟩ := idx_facts3 t
  funext a; apply Fin.ext
  match a with
  | ⟨0, _⟩ => show win3_3.index t (0 : Fin 2) * 5000 + 1 * p.val = t.val * 5000 + p.val; omega
  | ⟨1, _⟩ => show win3_3.index t (1 : Fin 2) * 64 + 1 * q.val = q.val; omega

/-- Entry `(p, q)` of block `t`, written over the arrays' entries, is the layer's function at node `5000 t + p`. -/
theorem block3 (A0 : S100000x64.Idx → EReal) (A1 : S100000x1.Idx → EReal) (A2 : S1x64.Idx → EReal) (t : Fin cfg3.N) (p : Fin 5000) (q : Fin 64) :
    max (A0 (((cfg3.win 0).blk t).view.emb (ix2 p q)) * A1 (((cfg3.win 1).blk t).view.emb (ix2 p (0 : Fin 1)))
      + A2 (((cfg3.win 2).blk t).view.emb (ix2 (0 : Fin 1) q))) 0
    = Cert.GraphConv.scaleBiasRelu A0 A1 A2 (((cfg3.win 3).blk t).view.emb (ix2 p q)) := by
  rw [emb3_3 t p q, Cert.GraphConv.scaleBiasRelu_ix2, emb3_1 t p, emb3_0 t p q, emb3_2 t q]
  rfl

/-- What point `t` writes back is block `t` of the layer's whole-array function of the arrays the region finds. -/
theorem flushed3 (c : Dev nD) (t : Fin cfg3.N) :
    (dat3 (F := Ideal) V c).flushed 3 t
      = ((cfg3.win 3).blk t).view.read (Elt Ideal) (Cert.GraphConv.scaleBiasRelu (V c main_v41) (V c main_v43) (V c main_v42)) := by
  show (cfg3.win 3).cut (grid3.coords t) ((dat3 (F := Ideal) V c).after 3 t) = _
  rw [after3_3]
  unfold out3_3
  rw [View.canon_unit_zero hz]
  simp only [View.ld_unit_zero (S := S5000x64) hz, View.ld_unit_zero (S := S5000x1) hz, View.ld_unit_zero (S := S1x64) hz]
  funext j
  obtain ⟨p, q, rfl⟩ : ∃ (p : Fin 5000) (q : Fin 64), j = ix2 p q := ⟨j 0, j 1, eq_ix2 j⟩
  refine (Cert.KernelIdeal.Pay.k3_pay1_apply (iblk3 V c 0 t) (iblk3 V c 1 t) (iblk3 V c 2 t) p q).trans ?_
  exact block3 (V c main_v41) (V c main_v43) (V c main_v42) t p q

/-- An index of the output array is in point `t`'s block iff each coordinate is in the block's range on its axis. -/
theorem mem_blk3 (t : Fin cfg3.N) (i : S100000x64.Idx) :
    i ∈ ((cfg3.win 3).blk t).view.set ↔ ∀ a : Fin 2, win3_3.index t a * S5000x64.size a ≤ (i a).val ∧ (i a).val < win3_3.index t a * S5000x64.size a + S5000x64.size a := by
  show i ∈ ((View.whole main_v44).slice (win3_3.rect t)).set ↔ _
  rw [View.set_slice_whole, Rect.mem_set_unit]
  exact Iff.rfl

/-- Node `r` lies in the block of point `r / 5000`: the twenty row blocks tile the output. -/
theorem cover3 (i : S100000x64.Idx) : ∃ t : Fin cfg3.N, (cfg3.win 3).flush t = true ∧ i ∈ ((cfg3.win 3).blk t).view.set := by
  have hi0 : (i 0).val < 100000 := (i 0).isLt
  have hi1 : (i 1).val < 64 := (i 1).isLt
  have ht : (i 0).val / 5000 < cfg3.N := lt_of_lt_of_eq (by omega : (i 0).val / 5000 < 20) N_3.symm
  refine ⟨⟨(i 0).val / 5000, ht⟩, flush3_3 _, ?_⟩
  obtain ⟨-, -, -, -, -, -, e6, e7⟩ := idx_facts3 ⟨(i 0).val / 5000, ht⟩
  rw [mem_blk3]
  intro a
  match a with
  | ⟨0, _⟩ =>
    show win3_3.index ⟨(i 0).val / 5000, ht⟩ (0 : Fin 2) * 5000 ≤ (i 0).val ∧ (i 0).val < win3_3.index ⟨(i 0).val / 5000, ht⟩ (0 : Fin 2) * 5000 + 5000
    rw [e6]; show (i 0).val / 5000 * 5000 ≤ (i 0).val ∧ (i 0).val < (i 0).val / 5000 * 5000 + 5000; omega
  | ⟨1, _⟩ =>
    show win3_3.index ⟨(i 0).val / 5000, ht⟩ (1 : Fin 2) * 64 ≤ (i 1).val ∧ (i 1).val < win3_3.index ⟨(i 0).val / 5000, ht⟩ (1 : Fin 2) * 64 + 64
    rw [e7]; omega

/-- The output array after the region: the layer's function of the three input arrays as the region found them. -/
theorem final3 (c : Dev nD) :
    (dat3 (F := Ideal) V c).arrAt 3 cfg3.N = Cert.GraphConv.scaleBiasRelu (V c main_v41) (V c main_v43) (V c main_v42) :=
  (dat3 (F := Ideal) V c).arrAt_eq_of_cover 3 _ (fun t _ => flushed3 V c t) cover3

end Cert.KernelIdeal.Region3

end
-- ==== Proof.RefLayer.lean ====
/-
  The reference's dense operations are the layer functions of Spec.lean.

  In the reference each dense end of a layer is a few whole-array host operations: the norm vector made a column and
  broadcast along the feature axis, an elementwise product, one `dot_general`; and after the aggregation a product with
  the broadcast norm column, a sum with the broadcast bias row, a maximum with a splat zero. Read at an entry `(r, j)`
  these are  Σ_k (h (r, k) · n (r, 0)) · W (k, j)  and  max (a (r, j) · n (r, 0) + b (0, j)) 0.
  Also here: a length-100000 vector reshaped to a column is that vector broadcast to a column, and a length-64 vector
  reshaped to a row is that vector broadcast to a row (the kernel program reshapes where the reference broadcasts).
-/
import proofs.«125327_j51771535786305_1_alg».proof.Proof.Gen.ReferenceIdeal
import proofs.«125327_j51771535786305_1_alg».proof.Proof.Spec
import Idealize.ShloMosaic.Lib.Pipeline.Value
import Idealize.ShloMosaic.Lib.ValueIdx
import Idealize.ShloMosaic.PureOps.Ideal.Laws

noncomputable section

namespace Cert.ReferenceIdeal.Layer

open Idealize.ShloMosaic Idealize.ShloMosaic.ValueIdx Cert.ReferenceIdeal Cert.ReferenceIdeal.Gen

theorem mm30_lhs0 (i : S100000x64.Idx) (q : dot_S100000x30_S30x64_S100000x64_1_0_0_1_n_n.contr.Idx) : (dot_S100000x30_S30x64_S100000x64_1_0_0_1_n_n.lhsIdx i q 0).val = (i 0).val := by
  unfold DotDims.lhsIdx
  rw [dif_neg (show ¬(0 : Fin S100000x30.rank) ∈ dot_S100000x30_S30x64_S100000x64_1_0_0_1_n_n.lhsBatch by decide), dif_pos (show (0 : Fin S100000x30.rank) ∈ dot_S100000x30_S30x64_S100000x64_1_0_0_1_n_n.lhsNonContracting by decide)]
  rfl
theorem mm30_rhs1 (i : S100000x64.Idx) (q : dot_S100000x30_S30x64_S100000x64_1_0_0_1_n_n.contr.Idx) : (dot_S100000x30_S30x64_S100000x64_1_0_0_1_n_n.rhsIdx i q 1).val = (i 1).val := by
  unfold DotDims.rhsIdx
  rw [dif_neg (show ¬(1 : Fin S30x64.rank) ∈ dot_S100000x30_S30x64_S100000x64_1_0_0_1_n_n.rhsBatch by decide), dif_pos (show (1 : Fin S30x64.rank) ∈ dot_S100000x30_S30x64_S100000x64_1_0_0_1_n_n.rhsNonContracting by decide)]
  rfl

/-- The reference's dense transform of one layer — features times the norm column broadcast along the feature axis,
    then one whole `dot_general` — is `(h ⊙ n) · W` entry by entry: at the ideal values the host's product is the plain
    sum over the contracted axis. -/
theorem scaleMatmul30_eq (x : FVec Ideal S100000x30 .f32) (n : FVec Ideal S100000x1 .f32) (w : FVec Ideal S30x64 .f32) :
    Host.dotGeneral (F := Ideal) dot_S100000x30_S30x64_S100000x64_1_0_0_1_n_n none (mulf x (broadcastInDim S100000x30 ![0, 1] bcast_S100000x1_S100000x30_0_1 n)) w
      = Cert.GraphConv.scaleMatmul30 x n w := by
  funext i
  obtain ⟨r, j, rfl⟩ : ∃ (r : Fin 100000) (j : Fin 64), i = ix2 r j := ⟨i 0, i 1, eq_ix2 i⟩
  rw [Cert.GraphConv.scaleMatmul30_ix2]
  unfold Cert.GraphConv.scaleMatmul30At
  simp only [Host.dotGeneral]
  rw [Ideal.dotGeneral_apply, ← Equiv.sum_comp (ValueIdx.contrEquiv1 dot_S100000x30_S30x64_S100000x64_1_0_0_1_n_n 30 rfl rfl).symm]
  refine Finset.sum_congr rfl fun k _ => ?_
  have hk := ValueIdx.contrEquiv1_symm_val dot_S100000x30_S30x64_S100000x64_1_0_0_1_n_n 30 rfl rfl k
  have el : dot_S100000x30_S30x64_S100000x64_1_0_0_1_n_n.lhsIdx (ix2 r j) ((ValueIdx.contrEquiv1 dot_S100000x30_S30x64_S100000x64_1_0_0_1_n_n 30 rfl rfl).symm k) = ix2 r k := funext fun a => Fin.ext (by
    match a with
    | ⟨0, _⟩ => exact mm30_lhs0 _ _
    | ⟨1, _⟩ => exact (dot_S100000x30_S30x64_S100000x64_1_0_0_1_n_n.lhsIdx_val_of_single rfl _ _).trans hk)
  have er : dot_S100000x30_S30x64_S100000x64_1_0_0_1_n_n.rhsIdx (ix2 r j) ((ValueIdx.contrEquiv1 dot_S100000x30_S30x64_S100000x64_1_0_0_1_n_n 30 rfl rfl).symm k) = ix2 k j := funext fun a => Fin.ext (by
    match a with
    | ⟨0, _⟩ => exact (dot_S100000x30_S30x64_S100000x64_1_0_0_1_n_n.rhsIdx_val_of_single rfl _ _).trans hk
    | ⟨1, _⟩ => exact mm30_rhs1 _ _)
  rw [el, er, mulf_apply]
  rw [broadcastInDim_apply _ bcast_S100000x1_S100000x30_0_1 n (ix2 r k) (ix2 r (0 : Fin 1)) (fun a => match a with
    | ⟨0, _⟩ => by show r.val = if (100000 : Nat) = 1 then 0 else r.val; rw [if_neg (by decide)]
    | ⟨1, _⟩ => by show 0 = if (1 : Nat) = 1 then 0 else k.val; rw [if_pos rfl])]

theorem mm64_lhs0 (i : S100000x64.Idx) (q : dot_S100000x64_S64x64_S100000x64_1_0_0_1_n_n.contr.Idx) : (dot_S100000x64_S64x64_S100000x64_1_0_0_1_n_n.lhsIdx i q 0).val = (i 0).val := by
  unfold DotDims.lhsIdx
  rw [dif_neg (show ¬(0 : Fin S100000x64.rank) ∈ dot_S100000x64_S64x64_S100000x64_1_0_0_1_n_n.lhsBatch by decide), dif_pos (show (0 : Fin S100000x64.rank) ∈ dot_S100000x64_S64x64_S100000x64_1_0_0_1_n_n.lhsNonContracting by decide)]
  rfl
theorem mm64_rhs1 (i : S100000x64.Idx) (q : dot_S100000x64_S64x64_S100000x64_1_0_0_1_n_n.contr.Idx) : (dot_S100000x64_S64x64_S100000x64_1_0_0_1_n_n.rhsIdx i q 1).val = (i 1).val := by
  unfold DotDims.rhsIdx
  rw [dif_neg (show ¬(1 : Fin S64x64.rank) ∈ dot_S100000x64_S64x64_S100000x64_1_0_0_1_n_n.rhsBatch by decide), dif_pos (show (1 : Fin S64x64.rank) ∈ dot_S100000x64_S64x64_S100000x64_1_0_0_1_n_n.rhsNonContracting by decide)]
  rfl

/-- The reference's dense transform of one layer — features times the norm column broadcast along the feature axis,
    then one whole `dot_general` — is `(h ⊙ n) · W` entry by entry: at the ideal values the host's product is the plain
    sum over the contracted axis. -/
theorem scaleMatmul64_eq (x : FVec Ideal S100000x64 .f32) (n : FVec Ideal S100000x1 .f32) (w : FVec Ideal S64x64 .f32) :
    Host.dotGeneral (F := Ideal) dot_S100000x64_S64x64_S100000x64_1_0_0_1_n_n none (mulf x (broadcastInDim S100000x64 ![0, 1] bcast_S100000x1_S100000x64_0_1 n)) w
      = Cert.GraphConv.scaleMatmul64 x n w := by
  funext i
  obtain ⟨r, j, rfl⟩ : ∃ (r : Fin 100000) (j : Fin 64), i = ix2 r j := ⟨i 0, i 1, eq_ix2 i⟩
  rw [Cert.GraphConv.scaleMatmul64_ix2]
  unfold Cert.GraphConv.scaleMatmul64At
  simp only [Host.dotGeneral]
  rw [Ideal.dotGeneral_apply, ← Equiv.sum_comp (ValueIdx.contrEquiv1 dot_S100000x64_S64x64_S100000x64_1_0_0_1_n_n 64 rfl rfl).symm]
  refine Finset.sum_congr rfl fun k _ => ?_
  have hk := ValueIdx.contrEquiv1_symm_val dot_S100000x64_S64x64_S100000x64_1_0_0_1_n_n 64 rfl rfl k
  have el : dot_S100000x64_S64x64_S100000x64_1_0_0_1_n_n.lhsIdx (ix2 r j) ((ValueIdx.contrEquiv1 dot_S100000x64_S64x64_S100000x64_1_0_0_1_n_n 64 rfl rfl).symm k) = ix2 r k := funext fun a => Fin.ext (by
    match a with
    | ⟨0, _⟩ => exact mm64_lhs0 _ _
    | ⟨1, _⟩ => exact (dot_S100000x64_S64x64_S100000x64_1_0_0_1_n_n.lhsIdx_val_of_single rfl _ _).trans hk)
  have er : dot_S100000x64_S64x64_S100000x64_1_0_0_1_n_n.rhsIdx (ix2 r j) ((ValueIdx.contrEquiv1 dot_S100000x64_S64x64_S100000x64_1_0_0_1_n_n 64 rfl rfl).symm k) = ix2 k j := funext fun a => Fin.ext (by
    match a with
    | ⟨0, _⟩ => exact (dot_S100000x64_S64x64_S100000x64_1_0_0_1_n_n.rhsIdx_val_of_single rfl _ _).trans hk
    | ⟨1, _⟩ => exact mm64_rhs1 _ _)
  rw [el, er, mulf_apply]
  rw [broadcastInDim_apply _ bcast_S100000x1_S100000x64_0_1 n (ix2 r k) (ix2 r (0 : Fin 1)) (fun a => match a with
    | ⟨0, _⟩ => by show r.val = if (100000 : Nat) = 1 then 0 else r.val; rw [if_neg (by decide)]
    | ⟨1, _⟩ => by show 0 = if (1 : Nat) = 1 then 0 else k.val; rw [if_pos rfl])]

/-- The reference's tail of one layer — aggregate times the broadcast norm column, plus the broadcast bias row,
    maximum with a splat zero — is `relu (a ⊙ n + b)` entry by entry. -/
theorem scaleBiasRelu_eq (a : FVec Ideal S100000x64 .f32) (n : FVec Ideal S100000x1 .f32) (b : FVec Ideal S1x64 .f32) :
    maximumf (F := Ideal) (addf (mulf a (broadcastInDim S100000x64 ![0, 1] bcast_S100000x1_S100000x64_0_1 n))
        (broadcastInDim S100000x64 ![0, 1] bcast_S1x64_S100000x64_0_1 b))
      (broadcastInDim S100000x64 ![] bcast_S_S100000x64 (constant (F := Ideal) S_ .f32 0x00000000#32))
      = Cert.GraphConv.scaleBiasRelu a n b := by
  funext i
  obtain ⟨r, j, rfl⟩ : ∃ (r : Fin 100000) (j : Fin 64), i = ix2 r j := ⟨i 0, i 1, eq_ix2 i⟩
  rw [Cert.GraphConv.scaleBiasRelu_ix2]
  unfold Cert.GraphConv.scaleBiasReluAt
  rw [maximumf_apply, addf_apply, mulf_apply]
  rw [broadcastInDim_apply _ bcast_S100000x1_S100000x64_0_1 n (ix2 r j) (ix2 r (0 : Fin 1)) (fun a => match a with
    | ⟨0, _⟩ => by show r.val = if (100000 : Nat) = 1 then 0 else r.val; rw [if_neg (by decide)]
    | ⟨1, _⟩ => by show 0 = if (1 : Nat) = 1 then 0 else j.val; rw [if_pos rfl])]
  rw [broadcastInDim_apply _ bcast_S1x64_S100000x64_0_1 b (ix2 r j) (ix2 (0 : Fin 1) j) (fun a => match a with
    | ⟨0, _⟩ => by show 0 = if (1 : Nat) = 1 then 0 else r.val; rw [if_pos rfl]
    | ⟨1, _⟩ => by show j.val = if (64 : Nat) = 1 then 0 else j.val; rw [if_neg (by decide)])]
  rw [broadcastInDim_apply _ bcast_S_S100000x64 (constant (F := Ideal) S_ .f32 0x00000000#32) (ix2 r j) ix0 (fun a => a.elim0)]
  rw [constant_apply, Ideal.ofBits_zero_f32]

/-- A vector of one entry per node reshaped to a column is that vector broadcast to a column. -/
theorem column_eq (v : FVec Ideal S100000 .f32) (h : S100000.ShapeCasts S100000x1) :
    shapeCast S100000x1 v h = broadcastInDim S100000x1 ![0] bcast_S100000_S100000x1_0 v := by
  funext i
  obtain ⟨r, z, rfl⟩ : ∃ (r : Fin 100000) (z : Fin 1), i = ix2 r z := ⟨i 0, i 1, eq_ix2 i⟩
  rw [shapeCast_apply v h (ix2 r z) (ix1 r) (by
    have hz : z.val = 0 := by have := z.isLt; omega
    rw [Shape.rowMajor_val_one, Shape.rowMajor_val_two]; show r.val = r.val * 1 + z.val; omega)]
  rw [broadcastInDim_apply _ bcast_S100000_S100000x1_0 v (ix2 r z) (ix1 r) (fun a => match a with
    | ⟨0, _⟩ => by show r.val = if (100000 : Nat) = 1 then 0 else r.val; rw [if_neg (by decide)])]

/-- A vector of one entry per feature reshaped to a row is that vector broadcast to a row. -/
theorem row_eq (v : FVec Ideal S64 .f32) (h : S64.ShapeCasts S1x64) :
    shapeCast S1x64 v h = broadcastInDim S1x64 ![1] bcast_S64_S1x64_1 v := by
  funext i
  obtain ⟨z, j, rfl⟩ : ∃ (z : Fin 1) (j : Fin 64), i = ix2 z j := ⟨i 0, i 1, eq_ix2 i⟩
  rw [shapeCast_apply v h (ix2 z j) (ix1 j) (by
    have hz : z.val = 0 := by have := z.isLt; omega
    rw [Shape.rowMajor_val_one, Shape.rowMajor_val_two]; show j.val = z.val * 64 + j.val; omega)]
  rw [broadcastInDim_apply _ bcast_S64_S1x64_1 v (ix2 z j) (ix1 j) (fun a => match a with
    | ⟨0, _⟩ => by show j.val = if (64 : Nat) = 1 then 0 else j.val; rw [if_neg (by decide)])]

/-! ## The operations both programs share, and the encoder as one function of the arguments -/

/-- The degree norm of an endpoint list: the number of edges with that endpoint at each node (a scatter-add of ones
    into zeros), raised to at least one, to the power -1/2. -/
def norm (idx : (⟨S1200000, .i32⟩ : BufTy).Contents (Elt Ideal)) : FVec Ideal S100000 .f32 :=
  Host.powf (F := Ideal) (maximumf (Host.scatterAdd (F := Ideal) scatter_S100000_S1200000x1_S1200000_n_0_0_1
      (broadcastInDim S100000 ![] bcast_S_S100000 (constant S_ .f32 0x00000000#32))
      (broadcastInDim S1200000x1 ![0] bcast_S1200000_S1200000x1_0 idx)
      (broadcastInDim S1200000 ![] bcast_S_S1200000 (constant S_ .f32 0x3F800000#32)))
    (broadcastInDim S100000 ![] bcast_S_S100000 (constant S_ .f32 0x3F800000#32)))
    (broadcastInDim S100000 ![] bcast_S_S100000 (constant S_ .f32 0xBF000000#32))

/-- The sparse aggregation: gather the rows of `h` at the edges' sources (a negative source counted from the end) and
    add each into the row of its destination, starting from zeros. -/
def aggregate (h : FVec Ideal S100000x64 .f32) (src dst : (⟨S1200000, .i32⟩ : BufTy).Contents (Elt Ideal)) :
    FVec Ideal S100000x64 .f32 :=
  Host.scatterAdd (F := Ideal) scatter_S100000x64_S1200000x1_S1200000x64_1_0_0_1
    (broadcastInDim S100000x64 ![] bcast_S_S100000x64 (constant S_ .f32 0x00000000#32))
    (broadcastInDim S1200000x1 ![0] bcast_S1200000_S1200000x1_0 dst)
    (Host.gather gather_S100000x64_S1200000x1_S1200000x64_1_0_n_n_0_1_164 h
      (broadcastInDim S1200000x1 ![0] bcast_S1200000_S1200000x1_0
        (select (cmpi .slt src (broadcastInDim S1200000 ![] bcast_S_S1200000 (constantI S_ 32 0#32)))
          (addi src (broadcastInDim S1200000 ![] bcast_S_S1200000 (constantI S_ 32 100000#32))) src)))

/-- A per-node vector as a column. -/
abbrev column (v : FVec Ideal S100000 .f32) : FVec Ideal S100000x1 .f32 :=
  broadcastInDim S100000x1 ![0] bcast_S100000_S100000x1_0 v
/-- A per-feature vector as a row. -/
abbrev biasRow (b : FVec Ideal S64 .f32) : FVec Ideal S1x64 .f32 :=
  broadcastInDim S1x64 ![1] bcast_S64_S1x64_1 b

/-- The two-layer encoder as one function of the seven arguments: each layer scales by the out-degree norm and
    multiplies by its weights, aggregates along the edges, scales by the in-degree norm, adds its bias and cuts at zero. -/
def encoder (x : FVec Ideal S100000x30 .f32) (w1 : FVec Ideal S30x64 .f32) (b1 : FVec Ideal S64 .f32)
    (w2 : FVec Ideal S64x64 .f32) (b2 : FVec Ideal S64 .f32) (src dst : (⟨S1200000, .i32⟩ : BufTy).Contents (Elt Ideal)) :
    FVec Ideal S100000x64 .f32 :=
  Cert.GraphConv.scaleBiasRelu
    (aggregate (Cert.GraphConv.scaleMatmul64
      (Cert.GraphConv.scaleBiasRelu
        (aggregate (Cert.GraphConv.scaleMatmul30 x (column (norm src)) w1) src dst)
        (column (norm dst)) (biasRow b1))
      (column (norm src)) w2) src dst)
    (column (norm dst)) (biasRow b2)

end Cert.ReferenceIdeal.Layer

end
-- ==== Proof.KernelFold.lean ====
/-
  The result of the idealized kernel program as one function of its arguments.

  The buffer contents at the eight segment boundaries are a fold from the launch memory. Followed at the buffers that
  matter: the first stretch computes the two degree norms and reshapes the out-degree norm to a column; region 0 leaves
  (x ⊙ norm_src) · W1; the next stretch aggregates it along the edges and reshapes the in-degree norm and the first
  bias; region 1 leaves relu (agg ⊙ norm_dst + b1); then the out-degree column again, region 2's (h ⊙ norm_src) · W2,
  the second aggregation, and region 3's relu (agg ⊙ norm_dst + b2) — the result. A reshape of a vector to a column or
  a row is the reference's broadcast of it, so the result is the encoder of RefLayer.lean at the arguments.
-/
import proofs.«125327_j51771535786305_1_alg».proof.Proof.Region0
import proofs.«125327_j51771535786305_1_alg».proof.Proof.Region1
import proofs.«125327_j51771535786305_1_alg».proof.Proof.Region2
import proofs.«125327_j51771535786305_1_alg».proof.Proof.Region3
import proofs.«125327_j51771535786305_1_alg».proof.Proof.RefLayer
import Idealize.ShloMosaic.Lib.StableHlo.Run

set_option maxRecDepth 16384

noncomputable section

namespace Cert.KernelIdeal.Fold

open Idealize.ShloMosaic Idealize.ShloMosaic.TcCoe Idealize.SL.Sem Idealize.ShloMosaic.StableHlo
open Cert.KernelIdeal Cert.KernelIdeal.Gen
open Cert.ReferenceIdeal.Layer (norm aggregate column biasRow encoder)

/-! ## What each stretch of host operations leaves, over any contents `W` it starts from -/

theorem host0_arg0 (W : Valuation τ sig (Elt Ideal)) :
    StableHlo.after hostOps0 W (Proc.devRef .tc main_arg0) = W (Proc.devRef .tc main_arg0) := by
  after_results <;> rfl
theorem host0_arg1 (W : Valuation τ sig (Elt Ideal)) :
    StableHlo.after hostOps0 W (Proc.devRef .tc main_arg1) = W (Proc.devRef .tc main_arg1) := by
  after_results <;> rfl
theorem host0_arg2 (W : Valuation τ sig (Elt Ideal)) :
    StableHlo.after hostOps0 W (Proc.devRef .tc main_arg2) = W (Proc.devRef .tc main_arg2) := by
  after_results <;> rfl
theorem host0_arg3 (W : Valuation τ sig (Elt Ideal)) :
    StableHlo.after hostOps0 W (Proc.devRef .tc main_arg3) = W (Proc.devRef .tc main_arg3) := by
  after_results <;> rfl
theorem host0_arg4 (W : Valuation τ sig (Elt Ideal)) :
    StableHlo.after hostOps0 W (Proc.devRef .tc main_arg4) = W (Proc.devRef .tc main_arg4) := by
  after_results <;> rfl
theorem host0_arg5 (W : Valuation τ sig (Elt Ideal)) :
    StableHlo.after hostOps0 W (Proc.devRef .tc main_arg5) = W (Proc.devRef .tc main_arg5) := by
  after_results <;> rfl
theorem host0_arg6 (W : Valuation τ sig (Elt Ideal)) :
    StableHlo.after hostOps0 W (Proc.devRef .tc main_arg6) = W (Proc.devRef .tc main_arg6) := by
  after_results <;> rfl
theorem host0_v10 (W : Valuation τ sig (Elt Ideal)) :
    StableHlo.after hostOps0 W (Proc.devRef .tc main_v10) = norm (W (Proc.devRef .tc main_arg5)) := by
  after_results <;> rfl
theorem host0_v14 (W : Valuation τ sig (Elt Ideal)) :
    StableHlo.after hostOps0 W (Proc.devRef .tc main_v14) = norm (W (Proc.devRef .tc main_arg6)) := by
  after_results <;> rfl
theorem host0_v15 (W : Valuation τ sig (Elt Ideal)) :
    StableHlo.after hostOps0 W (Proc.devRef .tc main_v15) = shapeCast S100000x1 (norm (W (Proc.devRef .tc main_arg5))) shapeCasts_S100000_S100000x1 := by
  after_results <;> rfl
theorem host1_v26 (W : Valuation τ sig (Elt Ideal)) :
    StableHlo.after hostOps1 W (Proc.devRef .tc main_v26) = aggregate (W (Proc.devRef .tc main_v16)) (W (Proc.devRef .tc main_arg5)) (W (Proc.devRef .tc main_arg6)) := by
  after_results <;> rfl
theorem host1_v27 (W : Valuation τ sig (Elt Ideal)) :
    StableHlo.after hostOps1 W (Proc.devRef .tc main_v27) = shapeCast S1x64 (W (Proc.devRef .tc main_arg2)) shapeCasts_S64_S1x64 := by
  after_results <;> rfl
theorem host1_v28 (W : Valuation τ sig (Elt Ideal)) :
    StableHlo.after hostOps1 W (Proc.devRef .tc main_v28) = shapeCast S100000x1 (W (Proc.devRef .tc main_v14)) shapeCasts_S100000_S100000x1 := by
  after_results <;> rfl
theorem host1_v10 (W : Valuation τ sig (Elt Ideal)) :
    StableHlo.after hostOps1 W (Proc.devRef .tc main_v10) = W (Proc.devRef .tc main_v10) := by
  after_results <;> rfl
theorem host1_v14 (W : Valuation τ sig (Elt Ideal)) :
    StableHlo.after hostOps1 W (Proc.devRef .tc main_v14) = W (Proc.devRef .tc main_v14) := by
  after_results <;> rfl
theorem host1_arg3 (W : Valuation τ sig (Elt Ideal)) :
    StableHlo.after hostOps1 W (Proc.devRef .tc main_arg3) = W (Proc.devRef .tc main_arg3) := by
  after_results <;> rfl
theorem host1_arg4 (W : Valuation τ sig (Elt Ideal)) :
    StableHlo.after hostOps1 W (Proc.devRef .tc main_arg4) = W (Proc.devRef .tc main_arg4) := by
  after_results <;> rfl
theorem host1_arg5 (W : Valuation τ sig (Elt Ideal)) :
    StableHlo.after hostOps1 W (Proc.devRef .tc main_arg5) = W (Proc.devRef .tc main_arg5) := by
  after_results <;> rfl
theorem host1_arg6 (W : Valuation τ sig (Elt Ideal)) :
    StableHlo.after hostOps1 W (Proc.devRef .tc main_arg6) = W (Proc.devRef .tc main_arg6) := by
  after_results <;> rfl
theorem host2_v30 (W : Valuation τ sig (Elt Ideal)) :
    StableHlo.after hostOps2 W (Proc.devRef .tc main_v30) = shapeCast S100000x1 (W (Proc.devRef .tc main_v10)) shapeCasts_S100000_S100000x1 := by
  after_results <;> rfl
theorem host2_v29 (W : Valuation τ sig (Elt Ideal)) :
    StableHlo.after hostOps2 W (Proc.devRef .tc main_v29) = W (Proc.devRef .tc main_v29) := by
  after_results <;> rfl
theorem host2_v14 (W : Valuation τ sig (Elt Ideal)) :
    StableHlo.after hostOps2 W (Proc.devRef .tc main_v14) = W (Proc.devRef .tc main_v14) := by
  after_results <;> rfl
theorem host2_arg3 (W : Valuation τ sig (Elt Ideal)) :
    StableHlo.after hostOps2 W (Proc.devRef .tc main_arg3) = W (Proc.devRef .tc main_arg3) := by
  after_results <;> rfl
theorem host2_arg4 (W : Valuation τ sig (Elt Ideal)) :
    StableHlo.after hostOps2 W (Proc.devRef .tc main_arg4) = W (Proc.devRef .tc main_arg4) := by
  after_results <;> rfl
theorem host2_arg5 (W : Valuation τ sig (Elt Ideal)) :
    StableHlo.after hostOps2 W (Proc.devRef .tc main_arg5) = W (Proc.devRef .tc main_arg5) := by
  after_results <;> rfl
theorem host2_arg6 (W : Valuation τ sig (Elt Ideal)) :
    StableHlo.after hostOps2 W (Proc.devRef .tc main_arg6) = W (Proc.devRef .tc main_arg6) := by
  after_results <;> rfl
theorem host3_v41 (W : Valuation τ sig (Elt Ideal)) :
    StableHlo.after hostOps3 W (Proc.devRef .tc main_v41) = aggregate (W (Proc.devRef .tc main_v31)) (W (Proc.devRef .tc main_arg5)) (W (Proc.devRef .tc main_arg6)) := by
  after_results <;> rfl
theorem host3_v42 (W : Valuation τ sig (Elt Ideal)) :
    StableHlo.after hostOps3 W (Proc.devRef .tc main_v42) = shapeCast S1x64 (W (Proc.devRef .tc main_arg4)) shapeCasts_S64_S1x64 := by
  after_results <;> rfl
theorem host3_v43 (W : Valuation τ sig (Elt Ideal)) :
    StableHlo.after hostOps3 W (Proc.devRef .tc main_v43) = shapeCast S100000x1 (W (Proc.devRef .tc main_v14)) shapeCasts_S100000_S100000x1 := by
  after_results <;> rfl

variable (m : (ℓ : Loc nD τ sig) → Buf (Elt Ideal) ℓ) (ρ : Dev nD → PrngReg) (c : Dev nD)

/-! ## The contents at each segment boundary, at the buffers later segments read -/

theorem W1_arg0 : W1 m ρ c (Proc.devRef .tc main_arg0) = (m ((c.tc : Thread nD τ).loc main_arg0)) :=
  host0_arg0 (W0 m ρ c)
theorem W1_arg1 : W1 m ρ c (Proc.devRef .tc main_arg1) = (m ((c.tc : Thread nD τ).loc main_arg1)) :=
  host0_arg1 (W0 m ρ c)
theorem W1_arg2 : W1 m ρ c (Proc.devRef .tc main_arg2) = (m ((c.tc : Thread nD τ).loc main_arg2)) :=
  host0_arg2 (W0 m ρ c)
theorem W1_arg3 : W1 m ρ c (Proc.devRef .tc main_arg3) = (m ((c.tc : Thread nD τ).loc main_arg3)) :=
  host0_arg3 (W0 m ρ c)
theorem W1_arg4 : W1 m ρ c (Proc.devRef .tc main_arg4) = (m ((c.tc : Thread nD τ).loc main_arg4)) :=
  host0_arg4 (W0 m ρ c)
theorem W1_arg5 : W1 m ρ c (Proc.devRef .tc main_arg5) = (m ((c.tc : Thread nD τ).loc main_arg5)) :=
  host0_arg5 (W0 m ρ c)
theorem W1_arg6 : W1 m ρ c (Proc.devRef .tc main_arg6) = (m ((c.tc : Thread nD τ).loc main_arg6)) :=
  host0_arg6 (W0 m ρ c)
theorem W1_v10 : W1 m ρ c (Proc.devRef .tc main_v10) = (norm (m ((c.tc : Thread nD τ).loc main_arg5))) :=
  host0_v10 (W0 m ρ c)
theorem W1_v14 : W1 m ρ c (Proc.devRef .tc main_v14) = (norm (m ((c.tc : Thread nD τ).loc main_arg6))) :=
  host0_v14 (W0 m ρ c)
theorem W1_v15 : W1 m ρ c (Proc.devRef .tc main_v15) = (shapeCast S100000x1 (norm (m ((c.tc : Thread nD τ).loc main_arg5))) shapeCasts_S100000_S100000x1) :=
  host0_v15 (W0 m ρ c)
theorem W2_v16 : W2 m ρ c (Proc.devRef .tc main_v16) = (Cert.GraphConv.scaleMatmul30 (m ((c.tc : Thread nD τ).loc main_arg0)) (shapeCast S100000x1 (norm (m ((c.tc : Thread nD τ).loc main_arg5))) shapeCasts_S100000_S100000x1) (m ((c.tc : Thread nD τ).loc main_arg1))) := by
  refine (W2_arr m ρ c 3).trans ((Cert.KernelIdeal.Region0.final0 (V1 m ρ) c).trans ?_)
  show Cert.GraphConv.scaleMatmul30 (W1 m ρ c (Proc.devRef .tc main_arg0)) (W1 m ρ c (Proc.devRef .tc main_v15)) (W1 m ρ c (Proc.devRef .tc main_arg1)) = _
  rw [W1_arg0 m ρ c, W1_v15 m ρ c, W1_arg1 m ρ c]
theorem W2_v10 : W2 m ρ c (Proc.devRef .tc main_v10) = (norm (m ((c.tc : Thread nD τ).loc main_arg5))) :=
  (W2_of_ne m ρ c main_v10 (by decide)).trans (W1_v10 m ρ c)
theorem W2_v14 : W2 m ρ c (Proc.devRef .tc main_v14) = (norm (m ((c.tc : Thread nD τ).loc main_arg6))) :=
  (W2_of_ne m ρ c main_v14 (by decide)).trans (W1_v14 m ρ c)
theorem W2_arg2 : W2 m ρ c (Proc.devRef .tc main_arg2) = (m ((c.tc : Thread nD τ).loc main_arg2)) :=
  (W2_of_ne m ρ c main_arg2 (by decide)).trans (W1_arg2 m ρ c)
theorem W2_arg3 : W2 m ρ c (Proc.devRef .tc main_arg3) = (m ((c.tc : Thread nD τ).loc main_arg3)) :=
  (W2_of_ne m ρ c main_arg3 (by decide)).trans (W1_arg3 m ρ c)
theorem W2_arg4 : W2 m ρ c (Proc.devRef .tc main_arg4) = (m ((c.tc : Thread nD τ).loc main_arg4)) :=
  (W2_of_ne m ρ c main_arg4 (by decide)).trans (W1_arg4 m ρ c)
theorem W2_arg5 : W2 m ρ c (Proc.devRef .tc main_arg5) = (m ((c.tc : Thread nD τ).loc main_arg5)) :=
  (W2_of_ne m ρ c main_arg5 (by decide)).trans (W1_arg5 m ρ c)
theorem W2_arg6 : W2 m ρ c (Proc.devRef .tc main_arg6) = (m ((c.tc : Thread nD τ).loc main_arg6)) :=
  (W2_of_ne m ρ c main_arg6 (by decide)).trans (W1_arg6 m ρ c)
theorem W3_v26 : W3 m ρ c (Proc.devRef .tc main_v26) = (aggregate (Cert.GraphConv.scaleMatmul30 (m ((c.tc : Thread nD τ).loc main_arg0)) (shapeCast S100000x1 (norm (m ((c.tc : Thread nD τ).loc main_arg5))) shapeCasts_S100000_S100000x1) (m ((c.tc : Thread nD τ).loc main_arg1))) (m ((c.tc : Thread nD τ).loc main_arg5)) (m ((c.tc : Thread nD τ).loc main_arg6))) :=
  (host1_v26 (W2 m ρ c)).trans (by rw [W2_v16 m ρ c, W2_arg5 m ρ c, W2_arg6 m ρ c])
theorem W3_v27 : W3 m ρ c (Proc.devRef .tc main_v27) = (shapeCast S1x64 (m ((c.tc : Thread nD τ).loc main_arg2)) shapeCasts_S64_S1x64) :=
  (host1_v27 (W2 m ρ c)).trans (by rw [W2_arg2 m ρ c])
theorem W3_v28 : W3 m ρ c (Proc.devRef .tc main_v28) = (shapeCast S100000x1 (norm (m ((c.tc : Thread nD τ).loc main_arg6))) shapeCasts_S100000_S100000x1) :=
  (host1_v28 (W2 m ρ c)).trans (by rw [W2_v14 m ρ c])
theorem W3_v10 : W3 m ρ c (Proc.devRef .tc main_v10) = (norm (m ((c.tc : Thread nD τ).loc main_arg5))) :=
  (host1_v10 (W2 m ρ c)).trans (W2_v10 m ρ c)
theorem W3_v14 : W3 m ρ c (Proc.devRef .tc main_v14) = (norm (m ((c.tc : Thread nD τ).loc main_arg6))) :=
  (host1_v14 (W2 m ρ c)).trans (W2_v14 m ρ c)
theorem W3_arg3 : W3 m ρ c (Proc.devRef .tc main_arg3) = (m ((c.tc : Thread nD τ).loc main_arg3)) :=
  (host1_arg3 (W2 m ρ c)).trans (W2_arg3 m ρ c)
theorem W3_arg4 : W3 m ρ c (Proc.devRef .tc main_arg4) = (m ((c.tc : Thread nD τ).loc main_arg4)) :=
  (host1_arg4 (W2 m ρ c)).trans (W2_arg4 m ρ c)
theorem W3_arg5 : W3 m ρ c (Proc.devRef .tc main_arg5) = (m ((c.tc : Thread nD τ).loc main_arg5)) :=
  (host1_arg5 (W2 m ρ c)).trans (W2_arg5 m ρ c)
theorem W3_arg6 : W3 m ρ c (Proc.devRef .tc main_arg6) = (m ((c.tc : Thread nD τ).loc main_arg6)) :=
  (host1_arg6 (W2 m ρ c)).trans (W2_arg6 m ρ c)
theorem W4_v29 : W4 m ρ c (Proc.devRef .tc main_v29) = (Cert.GraphConv.scaleBiasRelu (aggregate (Cert.GraphConv.scaleMatmul30 (m ((c.tc : Thread nD τ).loc main_arg0)) (shapeCast S100000x1 (norm (m ((c.tc : Thread nD τ).loc main_arg5))) shapeCasts_S100000_S100000x1) (m ((c.tc : Thread nD τ).loc main_arg1))) (m ((c.tc : Thread nD τ).loc main_arg5)) (m ((c.tc : Thread nD τ).loc main_arg6))) (shapeCast S100000x1 (norm (m ((c.tc : Thread nD τ).loc main_arg6))) shapeCasts_S100000_S100000x1) (shapeCast S1x64 (m ((c.tc : Thread nD τ).loc main_arg2)) shapeCasts_S64_S1x64)) := by
  refine (W4_arr m ρ c 3).trans ((Cert.KernelIdeal.Region1.final1 (V3 m ρ) c).trans ?_)
  show Cert.GraphConv.scaleBiasRelu (W3 m ρ c (Proc.devRef .tc main_v26)) (W3 m ρ c (Proc.devRef .tc main_v28)) (W3 m ρ c (Proc.devRef .tc main_v27)) = _
  rw [W3_v26 m ρ c, W3_v28 m ρ c, W3_v27 m ρ c]
theorem W4_v10 : W4 m ρ c (Proc.devRef .tc main_v10) = (norm (m ((c.tc : Thread nD τ).loc main_arg5))) :=
  (W4_of_ne m ρ c main_v10 (by decide)).trans (W3_v10 m ρ c)
theorem W4_v14 : W4 m ρ c (Proc.devRef .tc main_v14) = (norm (m ((c.tc : Thread nD τ).loc main_arg6))) :=
  (W4_of_ne m ρ c main_v14 (by decide)).trans (W3_v14 m ρ c)
theorem W4_arg3 : W4 m ρ c (Proc.devRef .tc main_arg3) = (m ((c.tc : Thread nD τ).loc main_arg3)) :=
  (W4_of_ne m ρ c main_arg3 (by decide)).trans (W3_arg3 m ρ c)
theorem W4_arg4 : W4 m ρ c (Proc.devRef .tc main_arg4) = (m ((c.tc : Thread nD τ).loc main_arg4)) :=
  (W4_of_ne m ρ c main_arg4 (by decide)).trans (W3_arg4 m ρ c)
theorem W4_arg5 : W4 m ρ c (Proc.devRef .tc main_arg5) = (m ((c.tc : Thread nD τ).loc main_arg5)) :=
  (W4_of_ne m ρ c main_arg5 (by decide)).trans (W3_arg5 m ρ c)
theorem W4_arg6 : W4 m ρ c (Proc.devRef .tc main_arg6) = (m ((c.tc : Thread nD τ).loc main_arg6)) :=
  (W4_of_ne m ρ c main_arg6 (by decide)).trans (W3_arg6 m ρ c)
theorem W5_v30 : W5 m ρ c (Proc.devRef .tc main_v30) = (shapeCast S100000x1 (norm (m ((c.tc : Thread nD τ).loc main_arg5))) shapeCasts_S100000_S100000x1) :=
  (host2_v30 (W4 m ρ c)).trans (by rw [W4_v10 m ρ c])
theorem W5_v29 : W5 m ρ c (Proc.devRef .tc main_v29) = (Cert.GraphConv.scaleBiasRelu (aggregate (Cert.GraphConv.scaleMatmul30 (m ((c.tc : Thread nD τ).loc main_arg0)) (shapeCast S100000x1 (norm (m ((c.tc : Thread nD τ).loc main_arg5))) shapeCasts_S100000_S100000x1) (m ((c.tc : Thread nD τ).loc main_arg1))) (m ((c.tc : Thread nD τ).loc main_arg5)) (m ((c.tc : Thread nD τ).loc main_arg6))) (shapeCast S100000x1 (norm (m ((c.tc : Thread nD τ).loc main_arg6))) shapeCasts_S100000_S100000x1) (shapeCast S1x64 (m ((c.tc : Thread nD τ).loc main_arg2)) shapeCasts_S64_S1x64)) :=
  (host2_v29 (W4 m ρ c)).trans (W4_v29 m ρ c)
theorem W5_v14 : W5 m ρ c (Proc.devRef .tc main_v14) = (norm (m ((c.tc : Thread nD τ).loc main_arg6))) :=
  (host2_v14 (W4 m ρ c)).trans (W4_v14 m ρ c)
theorem W5_arg3 : W5 m ρ c (Proc.devRef .tc main_arg3) = (m ((c.tc : Thread nD τ).loc main_arg3)) :=
  (host2_arg3 (W4 m ρ c)).trans (W4_arg3 m ρ c)
theorem W5_arg4 : W5 m ρ c (Proc.devRef .tc main_arg4) = (m ((c.tc : Thread nD τ).loc main_arg4)) :=
  (host2_arg4 (W4 m ρ c)).trans (W4_arg4 m ρ c)
theorem W5_arg5 : W5 m ρ c (Proc.devRef .tc main_arg5) = (m ((c.tc : Thread nD τ).loc main_arg5)) :=
  (host2_arg5 (W4 m ρ c)).trans (W4_arg5 m ρ c)
theorem W5_arg6 : W5 m ρ c (Proc.devRef .tc main_arg6) = (m ((c.tc : Thread nD τ).loc main_arg6)) :=
  (host2_arg6 (W4 m ρ c)).trans (W4_arg6 m ρ c)
theorem W6_v31 : W6 m ρ c (Proc.devRef .tc main_v31) = (Cert.GraphConv.scaleMatmul64 (Cert.GraphConv.scaleBiasRelu (aggregate (Cert.GraphConv.scaleMatmul30 (m ((c.tc : Thread nD τ).loc main_arg0)) (shapeCast S100000x1 (norm (m ((c.tc : Thread nD τ).loc main_arg5))) shapeCasts_S100000_S100000x1) (m ((c.tc : Thread nD τ).loc main_arg1))) (m ((c.tc : Thread nD τ).loc main_arg5)) (m ((c.tc : Thread nD τ).loc main_arg6))) (shapeCast S100000x1 (norm (m ((c.tc : Thread nD τ).loc main_arg6))) shapeCasts_S100000_S100000x1) (shapeCast S1x64 (m ((c.tc : Thread nD τ).loc main_arg2)) shapeCasts_S64_S1x64)) (shapeCast S100000x1 (norm (m ((c.tc : Thread nD τ).loc main_arg5))) shapeCasts_S100000_S100000x1) (m ((c.tc : Thread nD τ).loc main_arg3))) := by
  refine (W6_arr m ρ c 3).trans ((Cert.KernelIdeal.Region2.final2 (V5 m ρ) c).trans ?_)
  show Cert.GraphConv.scaleMatmul64 (W5 m ρ c (Proc.devRef .tc main_v29)) (W5 m ρ c (Proc.devRef .tc main_v30)) (W5 m ρ c (Proc.devRef .tc main_arg3)) = _
  rw [W5_v29 m ρ c, W5_v30 m ρ c, W5_arg3 m ρ c]
theorem W6_v14 : W6 m ρ c (Proc.devRef .tc main_v14) = (norm (m ((c.tc : Thread nD τ).loc main_arg6))) :=
  (W6_of_ne m ρ c main_v14 (by decide)).trans (W5_v14 m ρ c)
theorem W6_arg4 : W6 m ρ c (Proc.devRef .tc main_arg4) = (m ((c.tc : Thread nD τ).loc main_arg4)) :=
  (W6_of_ne m ρ c main_arg4 (by decide)).trans (W5_arg4 m ρ c)
theorem W6_arg5 : W6 m ρ c (Proc.devRef .tc main_arg5) = (m ((c.tc : Thread nD τ).loc main_arg5)) :=
  (W6_of_ne m ρ c main_arg5 (by decide)).trans (W5_arg5 m ρ c)
theorem W6_arg6 : W6 m ρ c (Proc.devRef .tc main_arg6) = (m ((c.tc : Thread nD τ).loc main_arg6)) :=
  (W6_of_ne m ρ c main_arg6 (by decide)).trans (W5_arg6 m ρ c)
theorem W7_v41 : W7 m ρ c (Proc.devRef .tc main_v41) = (aggregate (Cert.GraphConv.scaleMatmul64 (Cert.GraphConv.scaleBiasRelu (aggregate (Cert.GraphConv.scaleMatmul30 (m ((c.tc : Thread nD τ).loc main_arg0)) (shapeCast S100000x1 (norm (m ((c.tc : Thread nD τ).loc main_arg5))) shapeCasts_S100000_S100000x1) (m ((c.tc : Thread nD τ).loc main_arg1))) (m ((c.tc : Thread nD τ).loc main_arg5)) (m ((c.tc : Thread nD τ).loc main_arg6))) (shapeCast S100000x1 (norm (m ((c.tc : Thread nD τ).loc main_arg6))) shapeCasts_S100000_S100000x1) (shapeCast S1x64 (m ((c.tc : Thread nD τ).loc main_arg2)) shapeCasts_S64_S1x64)) (shapeCast S100000x1 (norm (m ((c.tc : Thread nD τ).loc main_arg5))) shapeCasts_S100000_S100000x1) (m ((c.tc : Thread nD τ).loc main_arg3))) (m ((c.tc : Thread nD τ).loc main_arg5)) (m ((c.tc : Thread nD τ).loc main_arg6))) :=
  (host3_v41 (W6 m ρ c)).trans (by rw [W6_v31 m ρ c, W6_arg5 m ρ c, W6_arg6 m ρ c])
theorem W7_v42 : W7 m ρ c (Proc.devRef .tc main_v42) = (shapeCast S1x64 (m ((c.tc : Thread nD τ).loc main_arg4)) shapeCasts_S64_S1x64) :=
  (host3_v42 (W6 m ρ c)).trans (by rw [W6_arg4 m ρ c])
theorem W7_v43 : W7 m ρ c (Proc.devRef .tc main_v43) = (shapeCast S100000x1 (norm (m ((c.tc : Thread nD τ).loc main_arg6))) shapeCasts_S100000_S100000x1) :=
  (host3_v43 (W6 m ρ c)).trans (by rw [W6_v14 m ρ c])
theorem W8_v44 : W8 m ρ c (Proc.devRef .tc main_v44) = (Cert.GraphConv.scaleBiasRelu (aggregate (Cert.GraphConv.scaleMatmul64 (Cert.GraphConv.scaleBiasRelu (aggregate (Cert.GraphConv.scaleMatmul30 (m ((c.tc : Thread nD τ).loc main_arg0)) (shapeCast S100000x1 (norm (m ((c.tc : Thread nD τ).loc main_arg5))) shapeCasts_S100000_S100000x1) (m ((c.tc : Thread nD τ).loc main_arg1))) (m ((c.tc : Thread nD τ).loc main_arg5)) (m ((c.tc : Thread nD τ).loc main_arg6))) (shapeCast S100000x1 (norm (m ((c.tc : Thread nD τ).loc main_arg6))) shapeCasts_S100000_S100000x1) (shapeCast S1x64 (m ((c.tc : Thread nD τ).loc main_arg2)) shapeCasts_S64_S1x64)) (shapeCast S100000x1 (norm (m ((c.tc : Thread nD τ).loc main_arg5))) shapeCasts_S100000_S100000x1) (m ((c.tc : Thread nD τ).loc main_arg3))) (m ((c.tc : Thread nD τ).loc main_arg5)) (m ((c.tc : Thread nD τ).loc main_arg6))) (shapeCast S100000x1 (norm (m ((c.tc : Thread nD τ).loc main_arg6))) shapeCasts_S100000_S100000x1) (shapeCast S1x64 (m ((c.tc : Thread nD τ).loc main_arg4)) shapeCasts_S64_S1x64)) := by
  refine (W8_arr m ρ c 3).trans ((Cert.KernelIdeal.Region3.final3 (V7 m ρ) c).trans ?_)
  show Cert.GraphConv.scaleBiasRelu (W7 m ρ c (Proc.devRef .tc main_v41)) (W7 m ρ c (Proc.devRef .tc main_v43)) (W7 m ρ c (Proc.devRef .tc main_v42)) = _
  rw [W7_v41 m ρ c, W7_v43 m ρ c, W7_v42 m ρ c]

/-- The result buffer at the last boundary is the encoder of the seven arguments. -/
theorem result : W8 m ρ c (Proc.devRef .tc main_v44) = encoder (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  rw [W8_v44 m ρ c]
  unfold encoder
  rw [Cert.ReferenceIdeal.Layer.column_eq, Cert.ReferenceIdeal.Layer.column_eq, Cert.ReferenceIdeal.Layer.row_eq, Cert.ReferenceIdeal.Layer.row_eq]

end Cert.KernelIdeal.Fold

end
-- ==== Proof.RefValue.lean ====
/-
  The idealized reference's result is the encoder of its arguments.

  The reference's run ends with its result at the composed term of its 74 host operations. In that term each layer's
  dense ends are the host forms that RefLayer.lean identifies with the layer functions (broadcast norm column, product,
  `dot_general`; product, sum with the broadcast bias, maximum with zero), and everything between them is the shared
  degree norm and edge aggregation: the term is the encoder.
-/
import proofs.«125327_j51771535786305_1_alg».proof.Proof.Gen.ReferenceIdeal.Run
import proofs.«125327_j51771535786305_1_alg».proof.Proof.RefLayer

set_option maxRecDepth 16384

noncomputable section

namespace Cert.ReferenceIdeal.RefValue

open Idealize.ShloMosaic Idealize.ShloMosaic.TcCoe Idealize.SL.Sem
open Cert.ReferenceIdeal Cert.ReferenceIdeal.Gen Cert.ReferenceIdeal.Layer

set_option maxHeartbeats 4000000 in
/-- The run's composed result term is the encoder at the seven argument arrays. -/
theorem result (m : (ℓ : Loc nD τ sig) → Buf (Elt Ideal) ℓ) (c : Dev nD) :
    Cert.ReferenceIdeal.Value.res_main_v56 (F := Ideal) m c
      = encoder (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  unfold Cert.ReferenceIdeal.Value.res_main_v56
  rw [scaleMatmul30_eq, scaleBiasRelu_eq, scaleMatmul64_eq, scaleBiasRelu_eq]
  rfl

end Cert.ReferenceIdeal.RefValue

end
-- ==== Proof.lean ====
/-
  A two-layer graph convolution encoder (100000 nodes, 1200000 edges, 30 → 64 → 64 features): the kernel program and
  its reference compute the same array over the extended reals.

  Both programs compute, per layer,  relu( D_in^{-1/2} · A · (D_out^{-1/2} · h · W) + b ).  The degree norms and the
  aggregation along the edges (a gather at the sources, a scatter-add at the destinations) are the same host operations
  in both. The dense ends differ in form only: the kernel program computes them in four pipelined regions, 5000 rows per
  grid point — rows scaled by the out-degree norm times the weights (through bf16, the identity on extended reals, into a
  zero accumulator), and the aggregate scaled by the in-degree norm plus the bias, cut at zero — where the reference
  applies one whole-array product, `dot_general`, sum and maximum. Entry by entry these are the same sums and the same
  maxima, in the same order: no algebraic law is needed, and the precondition (finite inputs) is never opened.

  The three frames are the generated ones (the reference's is its generated run with the result dropped); the ideal
  pass rewrote nothing, so `preserves` is `True`; `algebraic` puts the kernel program's run (its result followed
  through the eight segment boundaries, KernelFold.lean) beside the reference's run (RefValue.lean) at one common term.
-/
import proofs.«125327_j51771535786305_1_alg».proof.Defs
import proofs.«125327_j51771535786305_1_alg».proof.Proof.Gen.Kernel
import proofs.«125327_j51771535786305_1_alg».proof.Proof.Gen.Kernel.Skeleton
import proofs.«125327_j51771535786305_1_alg».proof.Proof.Gen.Kernel.Launch
import proofs.«125327_j51771535786305_1_alg».proof.Proof.Gen.Kernel.Points
import proofs.«125327_j51771535786305_1_alg».proof.Proof.Gen.Kernel.Frame
import proofs.«125327_j51771535786305_1_alg».proof.Proof.Gen.KernelIdeal
import proofs.«125327_j51771535786305_1_alg».proof.Proof.Gen.KernelIdeal.Skeleton
import proofs.«125327_j51771535786305_1_alg».proof.Proof.Gen.KernelIdeal.Launch
import proofs.«125327_j51771535786305_1_alg».proof.Proof.Gen.KernelIdeal.Points
import proofs.«125327_j51771535786305_1_alg».proof.Proof.Gen.KernelIdeal.Frame
import proofs.«125327_j51771535786305_1_alg».proof.Proof.Gen.ReferenceIdeal
import proofs.«125327_j51771535786305_1_alg».proof.Proof.Gen.Pre_finite_inputs
import proofs.«125327_j51771535786305_1_alg».proof.Proof.Gen.ReferenceIdeal.Run
import proofs.«125327_j51771535786305_1_alg».proof.Proof.KernelRun
import proofs.«125327_j51771535786305_1_alg».proof.Proof.KernelFold
import proofs.«125327_j51771535786305_1_alg».proof.Proof.RefValue
import Idealize.ShloMosaic.Adequacy
import Idealize.ShloMosaic.Init

noncomputable section

namespace Cert.KernelIdeal

open Idealize.ShloMosaic Idealize.ShloMosaic.TcCoe Idealize.SL.Sem
open Cert.ReferenceIdeal.Layer (encoder)

/-- Every weakly fair execution of the idealized kernel program terminates with its result at the encoder of the
    arguments, the arguments unchanged. -/
theorem run_encoder (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v44) = encoder (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (Cert.KernelIdeal.Fold.result m ρ c), (h c).2⟩)
    (Cert.KernelIdeal.WholeRun.run_result (F := Ideal) m ρ)

end Cert.KernelIdeal

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation: the idealization is the program's own text read at the ideal values. -/
theorem preserves : Cert.preserves_Kernel_KernelIdeal := trivial

/-- From memories agreeing on the arguments both programs end with the encoder of those arguments. -/
theorem algebraic : Cert.algebraic_KernelIdeal_ReferenceIdeal := by
  intro m ρ m' ρ' _ hagree
  refine ⟨_, Cert.KernelIdeal.run_encoder m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.result m' c, (hagree c).1, (hagree c).2.1, (hagree c).2.2.1, (hagree c).2.2.2.1,
    (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
